-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S39731 : Shape := ⟨1, ![39731]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S39731 : S_.BroadcastsInDim S39731 (![] : Fin 0 → Fin S39731.rank)
  reducesTo_S39731_S_d0 : S39731.ReducesTo [0] S_

variable [Facts]

def fn {F : FTy → Type} [FloatOps F] (main_arg0 : IVec S16384 32) (main_arg1 : IVec S39731 32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 39730#32
  let main_v2 : IVec S16384 32 := broadcastInDim S16384 ![] bcast_S_S16384 main_c_0
  let main_v3 : IVec S16384 1 := cmpi .sle main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S39731 32 := broadcastInDim S39731 ![] bcast_S_S39731 main_c_2
  let main_v7 : IVec S39731 1 := cmpi .sge main_arg1 main_v6
  let main_c_3 : IVec S_ 32 := constantI S_ 32 1#32
  let main_v8 : IVec S39731 32 := broadcastInDim S39731 ![] bcast_S_S39731 main_c_3
  let main_v9 : IVec S39731 1 := cmpi .sle main_arg1 main_v8
  let main_v10 : IVec S39731 1 := andi main_v7 main_v9
  let main_c_4 : IVec S_ 1 := constantI S_ 1 1#1
  let main_v11 : IVec S_ 1 := (fun x v => Host.reduce IntOp.andi x v reducesTo_S39731_S_d0 h_S_) main_v10 main_c_4
  let main_v12 : IVec S_ 1 := andi main_v5 main_v11
  main_v12
-- ==== Kernel.lean ====
abbrev S16384 : Shape := ⟨1, ![16384]⟩
abbrev S39731 : Shape := ⟨1, ![39731]⟩
abbrev S1024 : Shape := ⟨1, ![1024]⟩
abbrev S_ : Shape := ⟨0, ![]⟩
abbrev S256 : Shape := ⟨1, ![256]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S39731, .i32⟩
  | .hbm, ⟨2, _⟩ => ⟨S16384, .i32⟩
  | .local .scVector .vmem, ⟨0, _⟩ => ⟨S1024, .i32⟩
  | .local .scVector .vmem, ⟨1, _⟩ => ⟨S1024, .i32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off2 (i : grid0.Coords) (c0_i32_11 : BitVec 32) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let v18 : BitVec 32 := Scalar.addi v2 c0_i32_11
  ![v18.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1024_S256_0 : ∀ a, (![0] : Fin 1 → Nat) a + S256.size a ≤ S1024.size a
  inb_S39731_S39731_0 : ∀ a, (![0] : Fin 1 → Nat) a + S39731.size a ≤ S39731.size a
  gathers_S39731_S256 : S39731.Gathers 0 S256
  inb_S1024_S256_256 : ∀ a, (![256] : Fin 1 → Nat) a + S256.size a ≤ S1024.size a
  inb_S1024_S256_512 : ∀ a, (![512] : Fin 1 → Nat) a + S256.size a ≤ S1024.size a
  inb_S1024_S256_768 : ∀ a, (![768] : Fin 1 → Nat) a + S256.size a ≤ S1024.size a
  hcc0_scratch2 : 0 + S_.numel ≤ 6
  hcc0_scratch3 : 1 + S_.numel ≤ 6
  hcc0_scratch4 : 2 + S_.numel ≤ 6
  hcc0_scratch5 : 3 + S_.numel ≤ 6
  hcc0_scratch6 : 4 + S_.numel ≤ 6
  hcc0_scoped0 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S16384.size a
  k0_off2_inb : ∀ i : grid0.Coords, ∀ (r : Fin 4), ∀ a, (k0_off2 i (BitVec.ofNat 32 (256 * r.val))) a + S256.size a ≤ S16384.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scoped0 : DmaSems sig S_ := SemArray.consecutive 5 S_ hcc0_scoped0

class Facts : Prop extends Facts₀ where

variable [Facts]
-- ==== ReferenceIdeal.lean ====
abbrev S16384 : Shape := ⟨1, ![16384]⟩
abbrev S39731 : Shape := ⟨1, ![39731]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384, .i32⟩
  | .hbm, ⟨1, _⟩ => ⟨S39731, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_c_4 : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  gather_S39731_S16384x1_S16384_n_0_n_n_0_1_1_wf : GatherDims.WF S39731 S16384x1 S16384 [] [0] [] [0] [] 1 ![1]

variable [Facts₀]

def gather_S39731_S16384x1_S16384_n_0_n_n_0_1_1 : GatherDims S39731 S16384x1 S16384 where
  offsetDims := []
  collapsedSliceDims := [0]
  operandBatchingDims := []
  startIndicesBatchingDims := []
  startIndexMap := [0]
  indexVectorDim := 1
  sliceSizes := ![1]
  wf := gather_S39731_S16384x1_S16384_n_0_n_n_0_1_1_wf

class Facts : Prop extends Facts₀ where

variable [Facts]
-- ==== Proof.Spec.lean ====
/-
  The lookup both programs compute, as one function of the two argument arrays: entry `j` of the result is the
  table's entry at the position that word `j` of the index list names, the word read as a natural number.
  A word that names no entry of the table gives zero, so the function is total and carries no proof of range;
  under the range hypothesis `InRange` every word names an entry (`take_apply`).
-/
import Idealize.ShloMosaic.Lib.ValueIdx

namespace Cert.Proof.Spec

open Idealize.ShloMosaic Idealize.ShloMosaic.ValueIdx

/-- Every word of the index list, read as a natural number, is a position of the table (39731 entries). A word
    below 39731 has its top bit clear, so it is the same number read signed. -/
def InRange (idx : IVec ⟨1, ![16384]⟩ 32) : Prop := ∀ j, (idx j).toNat < 39731

/-- The lookup: `take idx tbl j = tbl[idx[j]]`, zero where `idx[j]` is no position of the table. -/
def take (idx : IVec ⟨1, ![16384]⟩ 32) (tbl : IVec ⟨1, ![39731]⟩ 32) : IVec ⟨1, ![16384]⟩ 32 :=
  fun j => if h : (idx j).toNat < 39731 then tbl (ix1 ⟨(idx j).toNat, h⟩) else 0#32

/-- In range, the lookup is the table at the named position. -/
theorem take_apply {idx : IVec ⟨1, ![16384]⟩ 32} (h : InRange idx) (tbl : IVec ⟨1, ![39731]⟩ 32) (j : (⟨1, ![16384]⟩ : Shape).Idx) :
    take idx tbl j = tbl (ix1 ⟨(idx j).toNat, h j⟩) := dif_pos (h j)

/-- The lookup at an entry depends on the table only at the named position, whatever proof of range names it. -/
theorem take_eq_of {idx : IVec ⟨1, ![16384]⟩ 32} (tbl : IVec ⟨1, ![39731]⟩ 32) (j : (⟨1, ![16384]⟩ : Shape).Idx)
    (p : (⟨1, ![39731]⟩ : Shape).Idx) (hp : (p 0).val = (idx j).toNat) : take idx tbl j = tbl p := by
  have h : (idx j).toNat < 39731 := hp ▸ (p 0).isLt
  rw [take, dif_pos h]
  congr 1
  rw [eq_ix1 p]
  exact congrArg ix1 (Fin.ext hp.symm)

end Cert.Proof.Spec
-- ==== Proof.PreRanges.lean ====
/-
  From the input-domain predicate to the range of the index words.

  The predicate is one bit: the `and` of two conjunctions, each taken over every entry of one argument. The first
  says of the index list `idx` that every word `v`, read as a signed 32-bit integer, satisfies `0 ≤ v` and
  `v ≤ 39730`; the second says of the table that every word lies between 0 and 1. Only the first is used here.

  A conjunction over all entries that comes out 1 had a 1 at every entry (`Host.reduce_andi_all`), so at each `j`
  both comparisons of `idx j` hold. A 32-bit word whose signed value is at least 0 has its top bit clear, so its
  signed and unsigned values are the same number; that number is at most 39730, that is, below 39731, the number
  of entries of the table.
-/
import proofs.«203133_g87995289960615_cont_sun_m_739_20_alg».proof.Pre_input_domain
import proofs.«203133_g87995289960615_cont_sun_m_739_20_alg».proof.Proof.Gen.Pre_input_domain
import proofs.«203133_g87995289960615_cont_sun_m_739_20_alg».proof.Proof.Spec
import Idealize.ShloMosaic.Lib.ReduceAll

namespace Cert.Proof.PreRanges

open Idealize.ShloMosaic

/-- A 32-bit word between 0 and 39730 as a signed integer is below 39731 as a natural number: the signed value of
    a word is its unsigned value when that is below `2^31` and the unsigned value less `2^32` otherwise; the second
    case is negative, which `0 ≤ v` excludes. -/
theorem word_lt (v : BitVec 32) (h0 : (0#32 : BitVec 32).toInt ≤ v.toInt)
    (h1 : v.toInt ≤ (39730#32 : BitVec 32).toInt) : v.toNat < 39731 := by
  simp only [BitVec.toInt_eq_toNat_cond, BitVec.toNat_ofNat, Nat.reducePow, Nat.reduceMod] at h0 h1
  omega

/-- If the input-domain predicate holds of `(a0, a1)`, every word of the index list `a0` names an entry of the
    table. The result of the predicate has rank 0, hence a single index, so its value there is the whole claim. -/
theorem inRange_of_pre {F : FTy → Type} [FloatOps F] (a0 : IVec ⟨1, ![16384]⟩ 32) (a1 : IVec ⟨1, ![39731]⟩ 32)
    (h : Cert.Pre_input_domain.fn (F := F) a0 a1 = fun _ => 1#1) : Cert.Proof.Spec.InRange a0 := by
  intro j
  -- a rank-0 shape has exactly one index: there is no axis to give a coordinate on
  haveI : Subsingleton Cert.Pre_input_domain.S_.Idx := ⟨fun a b => funext fun d => d.elim0⟩
  have e := congrFun h ValueIdx.ix0
  dsimp only [Cert.Pre_input_domain.fn] at e
  -- the outer `and` of the two conjunctions is 1, so the conjunction over the index list is 1
  obtain ⟨e1, -⟩ := IntOp.andi_eq_one.1 e
  -- hence its entry at `j` is 1: `(0 ≤ a0 j) and (a0 j ≤ 39730)`, both compares signed
  have ej := Host.reduce_andi_all _ _ _ _ _ e1 j
  obtain ⟨g0, g1⟩ := IntOp.andi_eq_one.1 ej
  -- each bound is a rank-0 constant spread over the list, so at `j` it is the constant itself
  exact word_lt _ (IntOp.cmpi_sge.1 g0) (IntOp.cmpi_sle.1 g1)

end Cert.Proof.PreRanges
-- ==== Proof.RefRun.lean ====
/-
  The reference program's run. @main calls @_take on (table, index list), which calls @_where; unfolded at the calls
  the program is a straight line of twenty-two host operations: the index list with its negative words wrapped
  (`where(idx < 0, idx + 39731, idx)`), that list as a column of one-word start indices, the gather of the table at
  the column (each start index read signed and clamped into `[0, 39730]`), the mask "the start index lies in
  `[0, 39730]`" (two comparisons, their and, and its and-reduction over the unit axis), and the select of the
  gathered entries under the mask against the least integer. Every weakly fair execution terminates with the result
  buffer at that composed term of the two arguments, the arguments unchanged (`run_term`). When every word of the
  index list is below 39731 no word is negative, so the wrap is the identity, both comparisons hold at every row, the
  clamp is the identity, and the term is the lookup `Spec.take` (`refTerm_eq`); `run` puts the two together.
-/
import proofs.«203133_g87995289960615_cont_sun_m_739_20_alg».proof.ReferenceIdeal
import proofs.«203133_g87995289960615_cont_sun_m_739_20_alg».proof.Proof.Gen.ReferenceIdeal
import proofs.«203133_g87995289960615_cont_sun_m_739_20_alg».proof.Proof.Spec
import Idealize.ShloMosaic.Lib.StableHlo.Run
import Idealize.ShloMosaic.Lib.ValueIdx

noncomputable section

namespace Cert.Proof.RefRun

open Idealize.ShloMosaic Idealize.SL.Sem Cert.ReferenceIdeal Cert.ReferenceIdeal.Gen
open Idealize.ShloMosaic.TcCoe Idealize.ShloMosaic.StableHlo Idealize.ShloMosaic.ValueIdx

variable {F : FTy → Type} [FloatOps F]

/-! ## The operations' composed term of the two arguments -/

/-- The index list after the wrap of negative words: `where(idx < 0, idx + 39731, idx)`. -/
def wrapIdx (idx : IVec S16384 32) : IVec S16384 32 :=
  select (cmpi .slt idx (broadcastInDim S16384 ![] bcast_S_S16384 (constantI S_ 32 0#32)))
    (addi idx (broadcastInDim S16384 ![] bcast_S_S16384 (constantI S_ 32 39731#32))) idx

/-- The wrapped list as a column of one-word start indices. -/
def col (idx : IVec S16384 32) : IVec S16384x1 32 :=
  broadcastInDim S16384x1 ![0] bcast_S16384_S16384x1_0 (wrapIdx idx)

/-- Per entry, whether its start index lies in `[0, 39730]` (the and over the unit axis of the two comparisons). -/
def mask (idx : IVec S16384 32) : IVec S16384 1 :=
  Host.reduce IntOp.andi
    (andi (cmpi .sge (col idx) (broadcastInDim S16384x1 ![] bcast_S_S16384x1 (constantI S_ 32 0#32)))
      (cmpi .sle (col idx) (broadcastInDim S16384x1 ![0, 1] bcast_S1x1_S16384x1_0_1
        (broadcastInDim S1x1 ![1] bcast_S1_S1x1_1 (constantI S1 32 39730#32)))))
    (constantI S_ 1 1#1) reducesTo_S16384x1_S16384_d1 h_S_

/-- What @main computes of its two arguments: the gathered entries where the mask holds, the least integer elsewhere. -/
def refTerm (idx : IVec S16384 32) (tbl : IVec S39731 32) : IVec S16384 32 :=
  select (mask idx) (Host.gather gather_S39731_S16384x1_S16384_n_0_n_n_0_1_1 tbl (col idx))
    (broadcastInDim S16384 ![] bcast_S_S16384 (constantI S_ 32 2147483648#32))

/-! ## The program as a line of operations, and its run -/

/-- @main's twenty-two operations in order, the two calls unfolded: @_take's six up to its call of @_where (the zero and
    its broadcast, the comparison, 39731 and its broadcast, the sum), @_where's select, then @_take's remaining fifteen
    (the column, the two bounds and their broadcasts, the two comparisons and their and, the and-reduction over the unit
    axis, the gather, the least integer and its broadcast, the final select). -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 39731#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 39730#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S39731_S16384x1_S16384_n_0_n_n_0_1_1 x i),
    TRef.nullary main_call0.c_4 (constantI S_ 32 2147483648#32),
    TRef.unary main_call0.c_4 main_call0.v14 (broadcastInDim S16384 ![] bcast_S_S16384),
    TRef.ternary main_call0.v12 main_call0.v13 main_call0.v14 main_call0.v15 select ]

set_option maxRecDepth 1024 in
/-- @main is that line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

attribute [local irreducible] Host.reduce Host.gather in
/-- The fold of the line at the result buffer is the composed term of the two argument buffers (the reduction and the
    gather kept folded: the equation never looks inside them). -/
theorem out_eq (V : Valuation τ sig (Elt F)) :
    after ops V (main_v0 : DevRef τ sig) = refTerm (V (main_arg0 : DevRef τ sig)) (V (main_arg1 : DevRef τ sig)) := by
  after_results
  rfl

/-- No operation writes the index list. -/
theorem arg0_eq (V : Valuation τ sig (Elt F)) : after ops V (main_arg0 : DevRef τ sig) = V (main_arg0 : DevRef τ sig) := by
  after_results

/-- No operation writes the table. -/
theorem arg1_eq (V : Valuation τ sig (Elt F)) : after ops V (main_arg1 : DevRef τ sig) = V (main_arg1 : DevRef τ sig) := by
  after_results

/-- For any float values, from any memory with zero counters: every weakly fair execution of @main terminates with the
    result buffer at the composed term of the two arguments' launch contents, and the arguments unchanged. -/
theorem run_term (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v0) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v0).trans (out_eq _), (h c main_arg0).trans (arg0_eq _), (h c main_arg1).trans (arg1_eq _)⟩)
    (run_seq scopedRefs_eq scopedSems_eq defs main (fun _ => ops) main_eq (fun _ => ops_sub) m g)

/-! ## The term under the range hypothesis -/

/-- A word below 39731 has its top bit clear: read signed it is the same number. -/
theorem toInt_of_lt {w : BitVec 32} (h : w.toNat < 39731) : w.toInt = (w.toNat : Int) := by
  rw [BitVec.toInt_eq_toNat_cond]
  split <;> omega

/-- Such a word is not negative. -/
theorem cmpi_slt_zero {w : BitVec 32} (h : w.toNat < 39731) : IntOp.cmpi .slt w 0#32 = 0#1 := by
  have h0 : w.slt 0#32 = false := by
    rw [BitVec.slt_eq_decide, toInt_of_lt h, BitVec.toInt_zero]
    exact decide_eq_false (by omega)
  show BitVec.ofBool (w.slt 0#32) = 0#1
  rw [h0]; rfl

/-- Such a word lies in `[0, 39730]`: both comparisons hold, and so does their and. -/
theorem inBounds_one {w : BitVec 32} (h : w.toNat < 39731) :
    IntOp.andi (IntOp.cmpi .sge w 0#32) (IntOp.cmpi .sle w 39730#32) = 1#1 := by
  have h1 : (0#32).sle w = true := by
    rw [BitVec.sle_eq_decide, toInt_of_lt h, BitVec.toInt_zero]
    exact decide_eq_true (by omega)
  have h2 : w.sle 39730#32 = true := by
    rw [BitVec.sle_eq_decide, toInt_of_lt h, toInt_of_lt (w := 39730#32) (by decide)]
    exact decide_eq_true (by simp only [BitVec.toNat_ofNat]; omega)
  show BitVec.ofBool ((0#32).sle w) &&& BitVec.ofBool (w.sle 39730#32) = 1#1
  rw [h1, h2]; rfl

/-- In range no word is negative, so the wrap changes nothing. -/
theorem wrapIdx_eq {idx : IVec S16384 32} (h : Cert.Proof.Spec.InRange idx) : wrapIdx idx = idx := by
  funext j
  show Scalar.select (IntOp.cmpi .slt (idx j) 0#32) (IntOp.addi (idx j) 39731#32) (idx j) = idx j
  rw [cmpi_slt_zero (h j), select_zero]

/-- The column of start indices at row `k 0` is the list's entry there. -/
theorem broadcastCol_apply {α : Type} (x : S16384.Idx → α) (k : S16384x1.Idx) :
    broadcastInDim S16384x1 ![0] bcast_S16384_S16384x1_0 x k = x (ix1 (k 0)) := by
  unfold broadcastInDim
  congr 1
  funext a
  match a with
  | ⟨0, _⟩ => rfl

/-- An and-reduction of one-bit words that are all ones, from the initial value one, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons n l ih =>
    rw [List.foldl_cons, hx, show IntOp.andi 1#1 1#1 = 1#1 from by decide]
    exact ih

/-- In range the mask is one everywhere. -/
theorem mask_eq {idx : IVec S16384 32} (h : Cert.Proof.Spec.InRange idx) (j : S16384.Idx) : mask idx j = 1#1 := by
  unfold mask
  refine reduce_andi_ones _ _ _ _ (fun k => ?_) rfl j
  show IntOp.andi (IntOp.cmpi .sge (col idx k) 0#32) (IntOp.cmpi .sle (col idx k) 39730#32) = 1#1
  unfold col
  rw [broadcastCol_apply, wrapIdx_eq h]
  exact inBounds_one (h _)

/-- The gather at entry `j` reads the table at the start index of row `j`, read signed and clamped into `[0, 39730]`;
    in range that is the word itself read as a natural number. -/
theorem gather_eq {idx : IVec S16384 32} (h : Cert.Proof.Spec.InRange idx) (tbl : IVec S39731 32) (j : S16384.Idx) :
    Host.gather gather_S39731_S16384x1_S16384_n_0_n_n_0_1_1 tbl (col idx) j = Cert.Proof.Spec.take idx tbl j := by
  unfold Host.gather
  refine (Cert.Proof.Spec.take_eq_of tbl j _ ?_).symm
  show gather_S39731_S16384x1_S16384_n_0_n_n_0_1_1.start j (col idx) 0
      + gather_S39731_S16384x1_S16384_n_0_n_n_0_1_1.batchCoord j 0
      + gather_S39731_S16384x1_S16384_n_0_n_n_0_1_1.offCoord j 0 = _
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (0 : Fin 1) ∈ gather_S39731_S16384x1_S16384_n_0_n_n_0_1_1.startIndexMap from List.mem_singleton.mpr rfl)]
  unfold col
  rw [broadcastCol_apply, wrapIdx_eq h]
  have hsi : ix1 (gather_S39731_S16384x1_S16384_n_0_n_n_0_1_1.siIdx j
      ⟨List.idxOf (0 : Fin 1) gather_S39731_S16384x1_S16384_n_0_n_n_0_1_1.startIndexMap,
        List.idxOf_lt_length_iff.2 (List.mem_singleton.mpr rfl)⟩ 0) = j := by
    funext b
    match b with
    | ⟨0, _⟩ => exact Fin.ext rfl
  refine (congrArg (fun q : S16384.Idx => min (idx q).toInt.toNat (39731 - 1)) hsi).trans ?_
  have hj := h j
  show min (idx j).toInt.toNat (39731 - 1) = (idx j).toNat
  rw [toInt_of_lt hj, Int.toNat_natCast]
  omega

/-- Under the range hypothesis the composed term is the lookup. -/
theorem refTerm_eq {idx : IVec S16384 32} (h : Cert.Proof.Spec.InRange idx) (tbl : IVec S39731 32) :
    refTerm idx tbl = Cert.Proof.Spec.take idx tbl := by
  funext j
  unfold refTerm
  rw [select_apply, mask_eq h j, select_one, gather_eq h]

/-! ## The run under the range hypothesis -/

/-- At the ideal instance, from any memory with zero counters whose index list is in range on every device: every
    weakly fair execution of @main terminates with the result the lookup of the table at the index list, and the
    two arguments unchanged. -/
theorem run (m : (ℓ : Loc nD τ sig) → Buf (Elt Ideal) ℓ) (g : Dev nD → PrngReg)
    (hin : ∀ c : Dev nD, Cert.Proof.Spec.InRange (m ((c.tc : Thread nD τ).loc main_arg0))) :
    θ_run (defs (F := Ideal)) (onTc (τ := τ) (main (F := Ideal))) ⟨m, fun _ => 0, g⟩ (fun r => ∀ c : Dev nD,
      r.2.mem ((c.tc : Thread nD τ).loc main_v0) = Cert.Proof.Spec.take (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (refTerm_eq (hin c) _), (h c).2⟩) (run_term m g)

end Cert.Proof.RefRun

end
-- ==== Proof.LibWindows.lean ====
/-
  The unit-stride windows of a flat array of 16384 entries: its 16 rows of 1024 consecutive entries and, inside each
  row, the 4 chunks of 256. Rows are pairwise disjoint and together are the whole array; the chunks of a row are
  pairwise disjoint and together are the row. A window is stated as the set of indices whose one coordinate lies in a
  half-open interval of naturals, so every fact below is a fact of integer arithmetic on that coordinate, which is
  below 16384.
-/
import Idealize.ShloMosaic.Shape

namespace Cert.Proof.LibWindows

open Idealize.ShloMosaic

/-- The window of 256 entries from `o`: entries `o … o+255`. -/
def winAt (o : ℕ) : Finset (⟨1, ![16384]⟩ : Shape).Idx :=
  Finset.univ.filter fun j => o ≤ (j 0).val ∧ (j 0).val < o + 256

/-- Row `i` of 1024 entries: entries `1024·i … 1024·i+1023`. -/
def rowAt (i : ℕ) : Finset (⟨1, ![16384]⟩ : Shape).Idx :=
  Finset.univ.filter fun j => 1024 * i ≤ (j 0).val ∧ (j 0).val < 1024 * i + 1024

/-- An index is in the window from `o` exactly when its coordinate is in `[o, o+256)`. -/
theorem mem_winAt (o : ℕ) (j : (⟨1, ![16384]⟩ : Shape).Idx) :
    j ∈ winAt o ↔ o ≤ (j 0).val ∧ (j 0).val < o + 256 := by
  simp only [winAt, Finset.mem_filter, Finset.mem_univ, true_and]

/-- An index is in row `i` exactly when its coordinate is in `[1024·i, 1024·i+1024)`. -/
theorem mem_rowAt (i : ℕ) (j : (⟨1, ![16384]⟩ : Shape).Idx) :
    j ∈ rowAt i ↔ 1024 * i ≤ (j 0).val ∧ (j 0).val < 1024 * i + 1024 := by
  simp only [rowAt, Finset.mem_filter, Finset.mem_univ, true_and]

/-- The coordinate of an index of the array is below its length. -/
theorem coord_lt (j : (⟨1, ![16384]⟩ : Shape).Idx) : (j 0).val < 16384 := (j 0).isLt

/-- Distinct rows share no entry: the intervals `[1024·i, 1024·i+1024)` of distinct `i` do not meet. -/
theorem rows_disjoint : ∀ i ∈ (Finset.univ : Finset (Fin 16)), ∀ i' ∈ (Finset.univ : Finset (Fin 16)), i ≠ i' →
    Disjoint (rowAt i.val) (rowAt i'.val) := by
  intro i _ i' _ hne
  rw [Finset.disjoint_left]
  intro j hj hj'
  rw [mem_rowAt] at hj hj'
  have hv : i.val ≠ i'.val := fun e => hne (Fin.ext e)
  omega

/-- The 16 rows are the whole array: a coordinate `c < 16384` lies in row `c / 1024`, and `c / 1024 < 16`. -/
theorem rows_cover : (Finset.univ : Finset (Fin 16)).biUnion (fun i => rowAt i.val) = Finset.univ := by
  ext j
  have hj := coord_lt j
  simp only [Finset.mem_biUnion, Finset.mem_univ, true_and, mem_rowAt, iff_true]
  refine ⟨⟨(j 0).val / 1024, by omega⟩, ?_, ?_⟩ <;> dsimp only <;> omega

/-- Distinct chunks of one row share no entry: the intervals `[1024·i+256·r, 1024·i+256·r+256)` of distinct `r`
    do not meet. -/
theorem wins_disjoint (i : ℕ) : ∀ r ∈ (Finset.univ : Finset (Fin 4)), ∀ r' ∈ (Finset.univ : Finset (Fin 4)), r ≠ r' →
    Disjoint (winAt (1024 * i + 256 * r.val)) (winAt (1024 * i + 256 * r'.val)) := by
  intro r _ r' _ hne
  rw [Finset.disjoint_left]
  intro j hj hj'
  rw [mem_winAt] at hj hj'
  have hv : r.val ≠ r'.val := fun e => hne (Fin.ext e)
  omega

/-- The 4 chunks of row `i` are the row: a coordinate `c` of the row lies in chunk `(c - 1024·i) / 256`, which is
    below 4 because `c - 1024·i < 1024`; and every chunk `r < 4` lies inside the row. -/
theorem wins_cover (i : ℕ) :
    (Finset.univ : Finset (Fin 4)).biUnion (fun r => winAt (1024 * i + 256 * r.val)) = rowAt i := by
  ext j
  simp only [Finset.mem_biUnion, Finset.mem_univ, true_and, mem_winAt, mem_rowAt]
  constructor
  · rintro ⟨r, h1, h2⟩
    have hr := r.isLt
    omega
  · rintro ⟨h1, h2⟩
    refine ⟨⟨((j 0).val - 1024 * i) / 256, by omega⟩, ?_, ?_⟩ <;> dsimp only <;> omega

/-- The element set of a unit-stride rectangle of 256 entries at offset `off` is the window from `off 0`: on the one
    axis, membership in the rectangle says `off 0 ≤ c < off 0 + 256` of the coordinate `c`. -/
theorem rectUnit_set_eq_winAt (off : Fin 1 → ℕ)
    (h : ∀ a, off a + (⟨1, ![256]⟩ : Shape).size a ≤ (⟨1, ![16384]⟩ : Shape).size a) :
    (Rect.unit (s := (⟨1, ![16384]⟩ : Shape)) off (⟨1, ![256]⟩ : Shape).size h).set = winAt (off 0) := by
  ext j
  rw [Rect.mem_set_unit, mem_winAt]
  exact ⟨fun hj => hj 0, fun hj a => match a with | ⟨0, _⟩ => hj⟩

/-- The element set of a unit-stride rectangle of 1024 entries at offset `1024·i` is row `i`. -/
theorem rectUnit_set_eq_rowAt (off : Fin 1 → ℕ) (i : ℕ) (hoff : off 0 = 1024 * i)
    (h : ∀ a, off a + (⟨1, ![1024]⟩ : Shape).size a ≤ (⟨1, ![16384]⟩ : Shape).size a) :
    (Rect.unit (s := (⟨1, ![16384]⟩ : Shape)) off (⟨1, ![1024]⟩ : Shape).size h).set = rowAt i := by
  ext j
  rw [Rect.mem_set_unit, mem_rowAt, ← hoff]
  exact ⟨fun hj => hj 0, fun hj a => match a with | ⟨0, _⟩ => hj⟩

end Cert.Proof.LibWindows
-- ==== Proof.SetupI.lean ====
/-
  The launch of the lookup kernel, as the launch theorem of the SparseCore library sees it: one call of a
  vector-subcore kernel on sixteen tiles of one SparseCore. Stated here: the configuration, the ghost state (the
  handshakes' rounds beside the transfers' counters), the three arrays, and what the handshakes carry.

  The call takes the index list, the table and the result array whole. Tile `i` is handed a read share of the
  whole index list, a read share of the whole table, and — outright — the four chunks of 256 entries that make
  row `i` (entries 1024·i … 1024·i+1023) of the result. It brings the shares back and the four chunks holding the
  lookup `Spec.take idx tbl` there; the call hands back the result array holding the lookup everywhere.
-/
import proofs.«203133_g87995289960615_cont_sun_m_739_20_alg».proof.KernelIdeal
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic
import proofs.«203133_g87995289960615_cont_sun_m_739_20_alg».proof.Proof.Gen.KernelIdeal
import proofs.«203133_g87995289960615_cont_sun_m_739_20_alg».proof.Proof.Gen.KernelIdeal.Skeleton
import proofs.«203133_g87995289960615_cont_sun_m_739_20_alg».proof.Proof.Spec
import proofs.«203133_g87995289960615_cont_sun_m_739_20_alg».proof.Proof.LibWindows

noncomputable section

namespace Cert.Proof.LaunchI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The model of the separation logic at this program's signature and this ghost state. -/
abbrev MM (F : FTy → Type) : Type := MT nD τ sig (HIx 1) (Elt F) ℕ UU ℕ

abbrev EH : Emb UH (MM F) := embL

/-! ## The launch memory and the three arrays -/

variable (m : (ℓ : Loc nD τ sig) → Buf (Elt F) ℓ) (ρ : Dev nD → PrngReg)

/-- The index list, the table and the result array of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The lookup of the launch memory's index list in its table: what the result array ends at. -/
abbrev G (d : Dev nD) : Buf (Elt F) (oLoc d) := Cert.Proof.Spec.take (m (iLoc d)) (m (xLoc d))

/-- Tile `i`'s read share of an array held whole: the `i`-th of sixteen read tokens of the full share. -/
abbrev qT (i : Fin 16) : PosShare TreeShare := Transfers.shareTok fullShare 16 i

/-! ## What the handshakes carry -/

abbrev iPts (d : Dev nD) : sProp (MM F) := iLoc d ↦{fullShare} m (iLoc d)
abbrev xPts (d : Dev nD) : sProp (MM F) := xLoc d ↦{fullShare} m (xLoc d)
abbrev oPts (d : Dev nD) (f : Buf (Elt F) (oLoc d)) : sProp (MM F) := oLoc d ↦{fullShare} f
abbrev iTok (d : Dev nD) (i : Fin 16) : sProp (MM F) := iLoc d ↦{qT i} m (iLoc d)
abbrev xTok (d : Dev nD) (i : Fin 16) : sProp (MM F) := xLoc d ↦{qT i} m (xLoc d)
/-- Chunk `r` of row `i` of the result array, held outright at contents `f`. -/
abbrev oWin (d : Dev nD) (i : Fin 16) (r : Fin 4) (f : Buf (Elt F) (oLoc d)) : sProp (MM F) :=
  oLoc d ↦[winAt (1024 * i.val + 256 * r.val)]{fullShare} f
/-- Row `i` of the result array as its four chunks. -/
abbrev oRow (d : Dev nD) (i : Fin 16) (f : Buf (Elt F) (oLoc d)) : sProp (MM F) :=
  bigSep Finset.univ fun r : Fin 4 => oWin d i r f

/-- The one call takes the three arrays whole and hands them back, the result array at the lookup; tile `i` takes
    its two read shares and its row's four chunks, and brings them back, the chunks at the lookup. -/
def P : (K (F := F)).Pay (nD := nD) (Val := Elt F) (Name := ℕ) (U := UU) where
  st := fun q d _ => match q with | 0 => iprop(iPts m d ∗ xPts m d ∗ oPts d (m (oLoc d)))
  dn := fun q d _ => match q with | 0 => iprop(iPts m d ∗ xPts m d ∗ oPts d (G m d))
  go := fun q d _ i => match q with
    | 0 => iprop(iTok m d (Fin.cast nSub_zero i) ∗ xTok m d (Fin.cast nSub_zero i) ∗ oRow d (Fin.cast nSub_zero i) (m (oLoc d)))
  td := fun q d _ i => match q with
    | 0 => iprop(iTok m d (Fin.cast nSub_zero i) ∗ xTok m d (Fin.cast nSub_zero i) ∗ oRow d (Fin.cast nSub_zero i) (G m d))
  x := fun _ _ => iprop(emp)

instance P_storable : (P (F := F) m).IsStorable where
  st q d _ := match q with
    | 0 => (inferInstance : BI.Storable (upEmb : UEmb _ (MM F)) iprop(iPts m d ∗ xPts m d ∗ oPts d (m (oLoc d))))
  dn q d _ := match q with
    | 0 => (inferInstance : BI.Storable (upEmb : UEmb _ (MM F)) iprop(iPts m d ∗ xPts m d ∗ oPts d (G m d)))
  go q d _ i := match q with
    | 0 => (inferInstance : BI.Storable (upEmb : UEmb _ (MM F))
      iprop(iTok m d (Fin.cast nSub_zero i) ∗ xTok m d (Fin.cast nSub_zero i) ∗ oRow d (Fin.cast nSub_zero i) (m (oLoc d))))
  td q d _ i := match q with
    | 0 => (inferInstance : BI.Storable (upEmb : UEmb _ (MM F))
      iprop(iTok m d (Fin.cast nSub_zero i) ∗ xTok m d (Fin.cast nSub_zero i) ∗ oRow d (Fin.cast nSub_zero i) (G m d)))

end Cert.Proof.LaunchI

end
-- ==== Proof.TileDefsI.lean ====
/-
  One tile's task of the lookup kernel, as the body names things: the thread of a grid point, the tile's row of
  the index list and the four chunks of its row of the result as the body slices them, what the fetch of the
  index words lands in the index scratch, and the tile's arrays respelt from the launch's names to the body's.
-/
import proofs.«203133_g87995289960615_cont_sun_m_739_20_alg».proof.Proof.SetupI

noncomputable section

namespace Cert.Proof.LaunchI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

local notation "𝕄" => MM F

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S39731 EltTy.i32)
local notation "oV" => (Memref.whole Cert.KernelIdeal.main_v0_scv : Memref Cert.KernelIdeal.sig Kind.scVector Space.hbm Cert.KernelIdeal.S16384 EltTy.i32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.i32)

variable [FloatOps F]

section Tile
variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- Chunk `r` of the tile's row of the result, and the tile's row of the index list, as the body slices them. -/
abbrev oCh (L : grid0.Coords) (r : Fin 4) : Memref sig .scVector .hbm S256 .i32 :=
  (oV).slice (Rect.unit (s := S16384) (k0_off2 L (BitVec.ofNat 32 (256 * r.val))) S256.size (k0_off2_inb L r)) (fun _ => rfl)
abbrev chSet (L : grid0.Coords) (r : Fin 4) : Finset S16384.Idx := (oCh L r).view.set
abbrev iRow (L : grid0.Coords) : Memref sig .scVector .hbm S1024 .i32 :=
  (iV).slice (Rect.unit (s := S16384) (k0_off1 L) S1024.size (k0_off1_inb L)) (fun _ => rfl)

/-- What the fetch of the tile's 1024 index words lands in the index scratch. -/
def PAY (d : Dev nD) (L : grid0.Coords) : S1024.Idx → Elt F .i32 :=
  ReadAs.same.apply (View.read (Elt F) (iRow L).view (m (iLoc d)))

omit [FloatOps F] in
theorem pts_i (q : PosShare TreeShare) (f : Buf (Elt F) (iLoc d)) :
    ((iV).view.loc (thr d L) ↦{q} f : sProp 𝕄) = iLoc d ↦{q} f := rfl
omit [FloatOps F] in
theorem pts_x (q : PosShare TreeShare) (f : Buf (Elt F) (xLoc d)) :
    ((xV).view.loc (thr d L) ↦{q} f : sProp 𝕄) = xLoc d ↦{q} f := rfl
omit [FloatOps F] in
theorem pts_o (r : Fin 4) (f : Buf (Elt F) (oLoc d)) :
    ((oCh L r).view.loc (thr d L) ↦[(oCh L r).view.set]{fullShare} f : sProp 𝕄) = oLoc d ↦[chSet L r]{fullShare} f := rfl
omit [FloatOps F] in
theorem pts_s (f : Buf (Elt F) ((thr d L).loc cc0_scratch0)) :
    ((sV).view.loc (thr d L) ↦{fullShare} f : sProp 𝕄) = (thr d L).loc cc0_scratch0 ↦{fullShare} f := rfl
omit [FloatOps F] in
theorem pts_r (f : Buf (Elt F) ((thr d L).loc cc0_scratch1)) :
    ((rV).view.loc (thr d L) ↦{fullShare} f : sProp 𝕄) = (thr d L).loc cc0_scratch1 ↦{fullShare} f := rfl

end Tile

end Cert.Proof.LaunchI

end
-- ==== Proof.ValueI.lean ====
/-
  The value of one chunk of the result after a tile's task: the four gathers land, in the four windows of the value
  scratch, the table read at the rows the four windows of the index scratch name; those words are the tile's row of
  the index list; the copy-out of window `r` carries that window to chunk `r` of the tile's row of the result. So
  entry `j` of the chunk ends at the table's entry at the position that word `j` of the index list names: the lookup.
-/
import proofs.«203133_g87995289960615_cont_sun_m_739_20_alg».proof.Proof.TileDefsI

noncomputable section

namespace Cert.Proof.LaunchI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

local notation "𝕄" => MM F

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S39731 EltTy.i32)
local notation "oV" => (Memref.whole Cert.KernelIdeal.main_v0_scv : Memref Cert.KernelIdeal.sig Kind.scVector Space.hbm Cert.KernelIdeal.S16384 EltTy.i32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.i32)

variable [FloatOps F]

section Tile
variable (d : Dev nD) (L : grid0.Coords)

/-! ## The windows of the two scratch buffers, and the in-range fact in the form the run of the body asks it -/

/-- The table as the body slices it (all of it). -/
abbrev xAll : Memref sig .scVector .hbm S39731 .i32 :=
  (xV).slice (Rect.unit (s := S39731) ![0] S39731.size inb_S39731_S39731_0) (fun _ => rfl)

theorem win_inb : ∀ (r : Fin 4) (a : Fin 1), (![256 * r.val] : Fin 1 → ℕ) a + S256.size a ≤ S1024.size a := by decide

/-- Window `r` (entries 256·r … 256·r+255) of a scratch buffer of 1024 words. -/
abbrev wRect (r : Fin 4) : Rect S1024 := Rect.unit (s := S1024) ![256 * r.val] S256.size (win_inb r)
abbrev sWin (r : Fin 4) : Memref sig .scVector .vmem S256 .i32 := (sV).slice (wRect r) (fun _ => rfl)
abbrev rWin (r : Fin 4) : Memref sig .scVector .vmem S256 .i32 := (rV).slice (wRect r) (fun _ => rfl)

/-- The index scratch once the fetch of the tile's index words has landed over prior contents `g`. -/
abbrev SIdx (g : Buf (Elt F) ((sV).view.loc (thr d L))) (pay : S1024.Idx → Elt F .i32) : Buf (Elt F) ((sV).view.loc (thr d L)) :=
  View.write (Elt F) (sV).view g pay Finset.univ

/-- Every word of every 256-word window of the index scratch, once the payload `pay` has landed, names an entry of
    the table: the fact each gather's issue asks for, for any prior contents and any window. -/
abbrev HIdx (pay : S1024.Idx → Elt F .i32) : Prop :=
  ∀ (g : Buf (Elt F) ((sV).view.loc (thr d L))) (off : Fin 1 → ℕ) (h : ∀ a, off a + S256.size a ≤ S1024.size a)
    (hs : ∀ a, (Rect.unit (s := S1024) off S256.size h).stride a = 1) (x : (Rect.unit (s := S1024) off S256.size h).shape.Idx),
    (View.read (Elt F) ((sV).slice (Rect.unit (s := S1024) off S256.size h) hs).view (SIdx d L g pay) x).toNat < 39731

open Idealize.ShloMosaic.ValueIdx (ix1)

/-! ## Coordinates of the slices' elements, and the scratch contents read at an entry -/

omit [FloatOps F] in
/-- Element `y` of chunk `r` of the tile's row of the result is entry `1024·(L 1) + 1024·(L 0) + 256·r + y` of the array. -/
theorem oCh_emb_val (r : Fin 4) (y : S256.Idx) :
    ((oCh L r).view.emb y 0).val = 1024 * (L 1).val + 1024 * (L 0).val + 256 * r.val + (y 0).val := by
  show (k0_off2 L (BitVec.ofNat 32 (256 * r.val))) 0 + 1 * (y 0).val = _
  rw [k0_off2_eq L r]
  simp only [Matrix.cons_val_zero, Nat.one_mul]

omit [FloatOps F] in
/-- Element `z` of the tile's row of the index list is entry `1024·(L 1) + 1024·(L 0) + z` of the list. -/
theorem iRow_emb_val (z : S1024.Idx) :
    ((iRow L).view.emb z 0).val = 1024 * (L 1).val + 1024 * (L 0).val + (z 0).val := by
  show (k0_off1 L) 0 + 1 * (z 0).val = _
  rw [k0_off1_eq L]
  simp only [Matrix.cons_val_zero, Nat.one_mul]

omit [FloatOps F] in
/-- Element `y` of window `r` of a scratch buffer is its entry `256·r + y`. -/
theorem wRect_emb_val (r : Fin 4) (y : S256.Idx) : ((wRect r).emb y 0).val = 256 * r.val + (y 0).val := by
  show (![256 * r.val] : Fin 1 → ℕ) 0 + 1 * (y 0).val = _
  simp only [Matrix.cons_val_zero, Nat.one_mul]

/-- The fetched payload at entry `z` is the index list at the element of the tile's row under `z`. -/
theorem PAY_apply (z : S1024.Idx) : PAY m d L z = m (iLoc d) ((iRow L).view.emb z) := rfl

/-- Landed whole over any prior contents, the payload is the index scratch's contents. -/
theorem SIdx_eq (g : Buf (Elt F) ((sV).view.loc (thr d L))) (pay : S1024.Idx → Elt F .i32) : SIdx d L g pay = pay :=
  View.write_whole_univ (Val := Elt F) (κ := Kind.scVector) cc0_scratch0 g pay

omit [FloatOps F] in
/-- The whole rectangle places an index at itself. -/
theorem whole_emb (s : Shape) (y : s.Idx) : (Rect.whole s).emb y = y := by
  funext a
  refine Fin.ext ?_
  show 0 + 1 * (y a).val = (y a).val
  omega

omit [FloatOps F] in
/-- In a rank-1 shape the index at row-major position `k` is the one whose coordinate is `k`. -/
theorem rowMajor_symm_one {n : Nat} (y : (⟨1, ![n]⟩ : Shape).Idx) (k : Fin (⟨1, ![n]⟩ : Shape).numel) (hk : k.val = (y 0).val) :
    (⟨1, ![n]⟩ : Shape).rowMajor.symm k = y := by
  rw [Equiv.symm_apply_eq]
  exact Fin.ext (by rw [Shape.rowMajor_val_one]; exact hk)

/-- The fact holds of the fetched index words when the whole index list is in range. -/
theorem inb_of_pre (hpre : Cert.Proof.Spec.InRange (m (iLoc d))) (pay : S1024.Idx → Elt F .i32) (hpay : pay = PAY m d L) :
    HIdx d L pay := by
  subst hpay
  intro g off h hs x
  rw [SIdx_eq]
  exact hpre _

/-- What gather `r` lands in window `r` of the value scratch: the table read at the rows that window `r` of the
    index scratch names. -/
abbrev GP (fs : Buf (Elt F) ((sV).view.loc (thr d L))) (pay : S1024.Idx → Elt F .i32) (hidx : HIdx d L pay) (r : Fin 4) :
    S256.Idx → Elt F .i32 :=
  SparseCore.gatherPayload gathers_S39731_S256 (View.read (Elt F) (xAll).view (m (xLoc d)))
    (SparseCore.rows (View.read (Elt F) (sWin r).view (SIdx d L fs pay)) (rfl : S256.numel = S256.size gathers_S39731_S256.axis')
      (hidx fs ![256 * r.val] (win_inb r) (fun _ => rfl)))

/-- Gather `r`'s payload at element `y`: the table at the position that entry `256·r + y` of the index scratch names. -/
theorem GP_apply (fs : Buf (Elt F) ((sV).view.loc (thr d L))) (pay : S1024.Idx → Elt F .i32) (hidx : HIdx d L pay) (r : Fin 4)
    (y : S256.Idx) (hlt : (pay ((wRect r).emb y)).toNat < 39731) :
    GP m d L fs pay hidx r y = m (xLoc d) (ix1 ⟨(pay ((wRect r).emb y)).toNat, hlt⟩) := by
  show m (xLoc d) ((xAll).view.emb (gathers_S39731_S256.idx _ y)) = _
  congr 1
  funext b
  match b with
  | ⟨0, _⟩ =>
    refine Fin.ext ?_
    show 0 + 1 * (gathers_S39731_S256.idx _ y 0).val = (pay ((wRect r).emb y)).toNat
    rw [Nat.zero_add, Nat.one_mul]
    refine (congrArg Fin.val (Shape.Gathers.idx_axis gathers_S39731_S256 _ y)).trans ?_
    have hrow : S256.rowMajor.symm (Fin.cast (rfl : S256.numel = S256.size gathers_S39731_S256.axis').symm (y gathers_S39731_S256.axis')) = y :=
      rowMajor_symm_one y _ rfl
    refine (congrArg (fun q => (View.read (Elt F) (sWin r).view (SIdx d L fs pay) q).toNat) hrow).trans ?_
    exact congrArg (fun f => (View.read (Elt F) (sWin r).view f y).toNat) (SIdx_eq d L fs pay)

omit [FloatOps F] in
/-- Every element of window `r` of the value scratch lies in one of the four windows written. -/
theorem win_cover (g0 g1 g2 g3 : S256.Idx → Elt F .i32) (r : Fin 4) (y : S256.Idx) :
    ∃ q ∈ ([⟨wRect 3, g3⟩, ⟨wRect 2, g2⟩, ⟨wRect 1, g1⟩, ⟨wRect 0, g0⟩] : List (View.Piece (Elt F) S1024 .i32)),
      (wRect r).emb y ∈ q.1.set := by
  match r with
  | ⟨0, _⟩ => exact ⟨⟨wRect 0, g0⟩, List.mem_cons_of_mem _ (List.mem_cons_of_mem _ (List.mem_cons_of_mem _ List.mem_cons_self)), (wRect 0).idx_mem y⟩
  | ⟨1, _⟩ => exact ⟨⟨wRect 1, g1⟩, List.mem_cons_of_mem _ (List.mem_cons_of_mem _ List.mem_cons_self), (wRect 1).idx_mem y⟩
  | ⟨2, _⟩ => exact ⟨⟨wRect 2, g2⟩, List.mem_cons_of_mem _ List.mem_cons_self, (wRect 2).idx_mem y⟩
  | ⟨3, _⟩ => exact ⟨⟨wRect 3, g3⟩, List.mem_cons_self, (wRect 3).idx_mem y⟩

/-- Window `r` of the value scratch, once the four gathers' payloads have landed in its four windows, read at element
    `y`: the table at the position that entry `256·r + y` of the index scratch names. -/
theorem rWin_read (fs : Buf (Elt F) ((sV).view.loc (thr d L))) (fr : Buf (Elt F) ((rV).view.loc (thr d L)))
    (pay : S1024.Idx → Elt F .i32) (hidx : HIdx d L pay) (hlt : ∀ z, (pay z).toNat < 39731) (r : Fin 4) (y : S256.Idx) :
    View.read (Elt F) (rWin r).view ((rV).view.writes (Elt F) fr
        [⟨wRect 3, GP m d L fs pay hidx 3⟩, ⟨wRect 2, GP m d L fs pay hidx 2⟩, ⟨wRect 1, GP m d L fs pay hidx 1⟩, ⟨wRect 0, GP m d L fs pay hidx 0⟩]) y
      = m (xLoc d) (ix1 ⟨(pay ((wRect r).emb y)).toNat, hlt _⟩) := by
  show View.read (Elt F) (rV).view ((rV).view.writes (Elt F) fr _) ((wRect r).emb y) = _
  refine View.read_writes_apply_of_pieces (κ := Kind.scVector) (sp := Space.vmem) (s := S1024) (e := EltTy.i32) (rV).view fr
    (fun z => m (xLoc d) (ix1 ⟨(pay z).toNat, hlt z⟩)) _ ?_ _ (win_cover _ _ _ _ r y)
  intro q hq x
  simp only [List.mem_cons, List.not_mem_nil, _root_.or_false] at hq
  rcases hq with rfl | rfl | rfl | rfl
  · exact GP_apply m d L fs pay hidx 3 x (hlt _)
  · exact GP_apply m d L fs pay hidx 2 x (hlt _)
  · exact GP_apply m d L fs pay hidx 1 x (hlt _)
  · exact GP_apply m d L fs pay hidx 0 x (hlt _)

/-- THE VALUE OF A CHUNK. Chunk `r` of the tile's row of the result, written whole with the payload `p` that the
    copy-out of window `r` of the value scratch carries — that scratch holding the four gathers' payloads `g0 … g3`
    in its four windows —, holds the lookup at every entry of the chunk. -/
theorem chunk_value (hpre : Cert.Proof.Spec.InRange (m (iLoc d)))
    (fs : Buf (Elt F) ((sV).view.loc (thr d L))) (fr : Buf (Elt F) ((rV).view.loc (thr d L))) (fo : Buf (Elt F) (oLoc d))
    (pay : S1024.Idx → Elt F .i32) (hpay : pay = PAY m d L) (hidx : HIdx d L pay)
    (g0 g1 g2 g3 : S256.Idx → Elt F .i32)
    (hg0 : g0 = GP m d L fs pay hidx 0) (hg1 : g1 = GP m d L fs pay hidx 1)
    (hg2 : g2 = GP m d L fs pay hidx 2) (hg3 : g3 = GP m d L fs pay hidx 3)
    (r : Fin 4) (p : S256.Idx → Elt F .i32)
    (hp : p = ReadAs.same.apply (View.read (Elt F) (rWin r).view
      ((rV).view.writes (Elt F) fr [⟨wRect 3, g3⟩, ⟨wRect 2, g2⟩, ⟨wRect 1, g1⟩, ⟨wRect 0, g0⟩]))) :
    ∀ j ∈ chSet L r, ((oCh L r).view.writes (Elt F) fo [⟨Rect.whole S256, p⟩]) j = G m d j := by
  intro j hj
  have hlt : ∀ z, (pay z).toNat < 39731 := fun z => by rw [hpay]; exact hpre _
  -- the membership as arithmetic on the coordinate, and the chunk's element under `j`
  have hjw : j ∈ winAt ((k0_off2 L (BitVec.ofNat 32 (256 * r.val))) 0) := by
    have e : chSet L r = winAt ((k0_off2 L (BitVec.ofNat 32 (256 * r.val))) 0) :=
      (View.set_slice_whole _ _).trans (Cert.Proof.LibWindows.rectUnit_set_eq_winAt _ (k0_off2_inb L r))
    exact e ▸ hj
  rw [Cert.Proof.LibWindows.mem_winAt, k0_off2_eq L r] at hjw
  simp only [Matrix.cons_val_zero] at hjw
  obtain ⟨y, rfl⟩ : ∃ y : S256.Idx, j = (oCh L r).view.emb y := by
    refine ⟨ix1 ⟨(j 0).val - (1024 * (L 1).val + 1024 * (L 0).val + 256 * r.val), by omega⟩, ?_⟩
    funext a
    match a with
    | ⟨0, _⟩ =>
      refine Fin.ext ?_
      refine Eq.trans ?_ (oCh_emb_val L r _).symm
      show (j 0).val = 1024 * (L 1).val + 1024 * (L 0).val + 256 * r.val + ((j 0).val - (1024 * (L 1).val + 1024 * (L 0).val + 256 * r.val))
      omega
  -- the whole-chunk write read at its own element is the payload there
  have h2 : ((oCh L r).view.writes (Elt F) fo [⟨Rect.whole S256, p⟩]) ((oCh L r).view.emb y) = p y := by
    have h := View.read_writes_cons_emb (oCh L r).view fo (Rect.whole S256) p [] y
    rw [whole_emb] at h
    exact h
  -- the payload is window `r` of the value scratch, whose every entry is the table at the row its index word names
  have h3 : p y = m (xLoc d) (ix1 ⟨(pay ((wRect r).emb y)).toNat, hlt _⟩) := by
    subst hg0 hg1 hg2 hg3
    rw [hp]
    exact rWin_read m d L fs fr pay hidx hlt r y
  -- that index word is the index list's entry under `j`: the lookup
  rw [h2, h3]
  refine (Cert.Proof.Spec.take_eq_of (idx := m (iLoc d)) (m (xLoc d)) _ _ ?_).symm
  show (pay ((wRect r).emb y)).toNat = _
  rw [hpay, PAY_apply]
  congr 2
  funext a
  match a with
  | ⟨0, _⟩ =>
    refine Fin.ext ?_
    refine (iRow_emb_val L _).trans ((congrArg (fun t => 1024 * (L 1).val + 1024 * (L 0).val + t) (wRect_emb_val r y)).trans ?_)
    refine Eq.trans ?_ (oCh_emb_val L r y).symm
    omega

end Tile

end Cert.Proof.LaunchI

end
-- ==== Proof.TileI.lean ====
/-
  One tile's task of the lookup kernel, run: the fetch of the tile's index words, the four gathers of table entries
  into the four windows of the value scratch, and the four copies of those windows out to the four chunks of the
  tile's row of the result. The run is the symbolic executor's; what the chunks hold afterwards is `chunk_value`.
-/
import proofs.«203133_g87995289960615_cont_sun_m_739_20_alg».proof.Proof.ValueI

noncomputable section

namespace Cert.Proof.LaunchI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

local notation "𝕄" => MM F

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S39731 EltTy.i32)
local notation "oV" => (Memref.whole Cert.KernelIdeal.main_v0_scv : Memref Cert.KernelIdeal.sig Kind.scVector Space.hbm Cert.KernelIdeal.S16384 EltTy.i32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.i32)

variable [FloatOps F]

section Tile
variable (d : Dev nD) (L : grid0.Coords)

set_option maxHeartbeats 4000000 in
/-- THE TILE'S TASK, from its resources laid out: a read share of the index list, the table, the four chunks of its row
    of the result outright, its two scratch buffers, its six DMA semaphores at zero. It fetches its 1024 index words,
    issues the four gathers (each on a semaphore of its own, each reading the table through a read token of its own,
    each into its own window of the value scratch from its own window of the index scratch), and after each gather's
    wait copies that window out to its chunk, the four copies on one semaphore and waited for at the end. Back come
    the shares, the chunks holding the lookup, the scratches at some contents, the semaphores at zero; whatever else the tile holds (`R`) is carried through untouched. -/
theorem tile_core (hpre : Cert.Proof.Spec.InRange (m (iLoc d))) (O : CellTallies nD τ sig (HIx 1)) (W : Waits sig (HIx 1))
    (qi qx : PosShare TreeShare)
    (fs : Buf (Elt F) ((thr d L).loc cc0_scratch0)) (fr : Buf (Elt F) ((thr d L).loc cc0_scratch1))
    (fo : Buf (Elt F) (oLoc d))
    (_plan : Transfers.BatchOf (thr d L) (SemLoc.dma (sig := sig) cc0_scratch6.sem) 4) (R : sProp 𝕄) :
    (iprop(Transfers.MayWaits (thr d L) (default : HIx 1) O
        ∗ (iLoc d ↦{qi} m (iLoc d))
        ∗ (xLoc d ↦{qx} m (xLoc d))
        ∗ (oLoc d ↦[chSet L 0]{fullShare} fo)
        ∗ (oLoc d ↦[chSet L 1]{fullShare} fo)
        ∗ (oLoc d ↦[chSet L 2]{fullShare} fo)
        ∗ (oLoc d ↦[chSet L 3]{fullShare} fo)
        ∗ ((thr d L).loc cc0_scratch0 ↦{fullShare} fs)
        ∗ ((thr d L).loc cc0_scratch1 ↦{fullShare} fr)
        ∗ semVal (thr d L, SemLoc.dma cc0_scratch2.sem) 0 ∗ semVal (thr d L, SemLoc.dma cc0_scratch3.sem) 0
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scoped0.sem) 0
        ∗ owes (thr d L) O W ∗ R) : sProp 𝕄)
      ⊢ wp frame (wpE (defs₀ (F := F)) 𝒱₀ (thr d L) none) Set.univ
          (cc0__gather_kernel L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scoped0)
          fun _ => iprop((iLoc d ↦{qi} m (iLoc d))
            ∗ (xLoc d ↦{qx} m (xLoc d))
            ∗ (oLoc d ↦[chSet L 0]{fullShare} G m d)
            ∗ (oLoc d ↦[chSet L 1]{fullShare} G m d)
            ∗ (oLoc d ↦[chSet L 2]{fullShare} G m d)
            ∗ (oLoc d ↦[chSet L 3]{fullShare} G m d)
            ∗ (∃ f, (thr d L).loc cc0_scratch0 ↦{fullShare} f)
            ∗ (∃ f, (thr d L).loc cc0_scratch1 ↦{fullShare} f)
            ∗ semVal (thr d L, SemLoc.dma cc0_scratch2.sem) 0 ∗ semVal (thr d L, SemLoc.dma cc0_scratch3.sem) 0
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scoped0.sem) 0
            ∗ (∃ W', ⌜∀ p ∈ W', p ∈ W ∨ p.2 = none⌝ ∗ owes (thr d L) O W') ∗ R) := by
  simp only [cc0__gather_kernel_eq_skeleton]; unfold cc0__gather_kernel_skel
  iintro ⟨Hmw, Hi, Hx, Ho0, Ho1, Ho2, Ho3, Hs, Hr, Hs2, Hs3, Hs4, Hs5, Hs6, Hs0, HO, HR⟩
  -- the table as one read token per gather's semaphore, and the remainder
  ihave Hx4 := ((Transfers.pointsTo_toks_split (Ix := HIx 1) (Name := ℕ) (U := UU) (Lvl := ℕ) qx 4).trans
    (show _ ⊢ iprop((xLoc d ↦{Transfers.shareDrop qx 4} m (xLoc d)) ∗ (xLoc d ↦{Transfers.shareTok qx 4 0} m (xLoc d))
        ∗ (xLoc d ↦{Transfers.shareTok qx 4 1} m (xLoc d)) ∗ (xLoc d ↦{Transfers.shareTok qx 4 2} m (xLoc d))
        ∗ (xLoc d ↦{Transfers.shareTok qx 4 3} m (xLoc d)))
      from Entails.of_eq (by
        rw [show (Finset.univ : Finset (Fin 4)) = {0, 1, 2, 3} by decide, SparseCore.bigSep_insert' (by decide),
          SparseCore.bigSep_insert' (by decide), SparseCore.bigSep_insert' (by decide), bigSep_singleton]))) $$ Hx
  icases Hx4 with ⟨Hxr, Hx0, Hx1, Hx2, Hx3⟩
  ihave Hi' := (Entails.of_eq (pts_i (F := F) d L _ _).symm) $$ Hi
  ihave Hxr' := (Entails.of_eq (pts_x (F := F) d L _ _).symm) $$ Hxr
  ihave Hx0' := (Entails.of_eq (pts_x (F := F) d L _ _).symm) $$ Hx0
  ihave Hx1' := (Entails.of_eq (pts_x (F := F) d L _ _).symm) $$ Hx1
  ihave Hx2' := (Entails.of_eq (pts_x (F := F) d L _ _).symm) $$ Hx2
  ihave Hx3' := (Entails.of_eq (pts_x (F := F) d L _ _).symm) $$ Hx3
  ihave Ho0' := (Entails.of_eq (pts_o (F := F) d L 0 _).symm) $$ Ho0
  ihave Ho1' := (Entails.of_eq (pts_o (F := F) d L 1 _).symm) $$ Ho1
  ihave Ho2' := (Entails.of_eq (pts_o (F := F) d L 2 _).symm) $$ Ho2
  ihave Ho3' := (Entails.of_eq (pts_o (F := F) d L 3 _).symm) $$ Ho3
  ihave Hs' := (Entails.of_eq (pts_s (F := F) d L _).symm) $$ Hs
  ihave Hr' := (Entails.of_eq (pts_r (F := F) d L _).symm) $$ Hr
  -- the fetch of the index words and its wait
  sl_exec
  -- the fetched words name entries of the table, at every window of the index scratch
  have hidx : ∀ (g : Buf (Elt F) ((sV).view.loc (thr d L))) (off : Fin 1 → ℕ) (h : ∀ a, off a + S256.size a ≤ S1024.size a)
      (hs : ∀ a, (Rect.unit (s := S1024) off S256.size h).stride a = 1) (x : (Rect.unit (s := S1024) off S256.size h).shape.Idx),
      (View.read (Elt F) ((sV).slice (Rect.unit (s := S1024) off S256.size h) hs).view
        (View.write (Elt F) (sV).view g (tile_core.sl.dma0 m d L) Finset.univ) x).toNat < 39731 :=
    inb_of_pre m d L hpre _ rfl
  -- the four gathers, their waits, the four copies out and their waits
  sl_exec
  sl_step
  -- the chunks hold the lookup
  ihave Hc0 := (Entails.of_eq ((pts_o (F := F) d L 0 _).trans (pointsTo_congr
    (chunk_value m d L hpre fs fr fo (tile_core.sl.dma0 m d L) rfl hidx (tile_core.sl.gather0 m d L fs hidx) (tile_core.sl.gather1 m d L fs hidx)
      (tile_core.sl.gather2 m d L fs hidx) (tile_core.sl.gather3 m d L fs hidx) rfl rfl rfl rfl 0 (tile_core.sl.dma4 m d L fs fr hidx) rfl)))) $$ Ho0'
  ihave Hc1 := (Entails.of_eq ((pts_o (F := F) d L 1 _).trans (pointsTo_congr
    (chunk_value m d L hpre fs fr fo (tile_core.sl.dma0 m d L) rfl hidx (tile_core.sl.gather0 m d L fs hidx) (tile_core.sl.gather1 m d L fs hidx)
      (tile_core.sl.gather2 m d L fs hidx) (tile_core.sl.gather3 m d L fs hidx) rfl rfl rfl rfl 1 (tile_core.sl.dma5 m d L fs fr hidx) rfl)))) $$ Ho1'
  ihave Hc2 := (Entails.of_eq ((pts_o (F := F) d L 2 _).trans (pointsTo_congr
    (chunk_value m d L hpre fs fr fo (tile_core.sl.dma0 m d L) rfl hidx (tile_core.sl.gather0 m d L fs hidx) (tile_core.sl.gather1 m d L fs hidx)
      (tile_core.sl.gather2 m d L fs hidx) (tile_core.sl.gather3 m d L fs hidx) rfl rfl rfl rfl 2 (tile_core.sl.dma6 m d L fs fr hidx) rfl)))) $$ Ho2'
  ihave Hc3 := (Entails.of_eq ((pts_o (F := F) d L 3 _).trans (pointsTo_congr
    (chunk_value m d L hpre fs fr fo (tile_core.sl.dma0 m d L) rfl hidx (tile_core.sl.gather0 m d L fs hidx) (tile_core.sl.gather1 m d L fs hidx)
      (tile_core.sl.gather2 m d L fs hidx) (tile_core.sl.gather3 m d L fs hidx) rfl rfl rfl rfl 3 (tile_core.sl.dma7 m d L fs fr hidx) rfl)))) $$ Ho3'
  isplitl [Hi']; · iapply (Entails.of_eq (pts_i (F := F) d L _ _)); iexact Hi'
  isplitl [Hxr' Hx0' Hx1' Hx2' Hx3']
  · iapply ((show iprop((xLoc d ↦{Transfers.shareDrop qx 4} m (xLoc d)) ∗ (xLoc d ↦{Transfers.shareTok qx 4 0} m (xLoc d))
        ∗ (xLoc d ↦{Transfers.shareTok qx 4 1} m (xLoc d)) ∗ (xLoc d ↦{Transfers.shareTok qx 4 2} m (xLoc d))
        ∗ (xLoc d ↦{Transfers.shareTok qx 4 3} m (xLoc d))) ⊢ _
      from Entails.of_eq (by
        rw [show (Finset.univ : Finset (Fin 4)) = {0, 1, 2, 3} by decide, SparseCore.bigSep_insert' (by decide),
          SparseCore.bigSep_insert' (by decide), SparseCore.bigSep_insert' (by decide), bigSep_singleton])).trans
      (Transfers.pointsTo_toks_join (Ix := HIx 1) (Name := ℕ) (U := UU) (Lvl := ℕ) qx 4))
    isplitl [Hxr']; · iexact Hxr'
    isplitl [Hx0']; · iexact Hx0'
    isplitl [Hx1']; · iexact Hx1'
    isplitl [Hx2']; · iexact Hx2'
    iexact Hx3'
  isplitl [Hc0]; · iexact Hc0
  isplitl [Hc1]; · iexact Hc1
  isplitl [Hc2]; · iexact Hc2
  isplitl [Hc3]; · iexact Hc3
  isplitl [Hs']; · iexists _; iexact Hs'
  isplitl [Hr']; · iexists _; iexact Hr'
  isplitl [Hs2]; · iexact Hs2
  isplitl [Hs3]; · iexact Hs3
  isplitl [Hs4]; · iexact Hs4
  isplitl [Hs5]; · iexact Hs5
  isplitl [Hs6]; · iexact Hs6
  isplitl [Hs0]; · iexact Hs0
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · iexact HR

end Tile

end Cert.Proof.LaunchI

end
-- ==== Proof.TileOpenI.lean ====
/-
  What one tile holds of its own when its task begins, opened into the pieces the task's body names: its six
  transfer cells at zero and its two scratch arrays at some contents, each beside the rest of the tile's own cells
  and arrays; and the four chunks of the tile's row of the result, as the body slices them, identified with the
  windows the launch dealt.

  A chunk as the body slices it is a rectangle of 256 entries of the whole result array at offset
  `1024·j + 1024·c + 256·r`, `j` the tile, `c` the SparseCore of the grid point, `r` the chunk; the grid has one
  SparseCore, so `c = 0` and the rectangle's entries are the window from `1024·j + 256·r`.
-/
import proofs.«203133_g87995289960615_cont_sun_m_739_20_alg».proof.Proof.TileDefsI

noncomputable section

namespace Cert.Proof.LaunchI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

local notation "𝕄" => MM F

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S39731 EltTy.i32)
local notation "oV" => (Memref.whole Cert.KernelIdeal.main_v0_scv : Memref Cert.KernelIdeal.sig Kind.scVector Space.hbm Cert.KernelIdeal.S16384 EltTy.i32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.i32)

variable [FloatOps F]

section Tile
variable (d : Dev nD) (L : grid0.Coords)

/-! ## The tile's six transfer cells -/

/-- The tile's six transfer cells: the five of its scratch semaphores and the one its scope allocates. -/
abbrev cell2 (d : Dev nD) (L : grid0.Coords) : GSem nD τ sig := (thr d L, SemLoc.dma cc0_scratch2.sem)
abbrev cell3 (d : Dev nD) (L : grid0.Coords) : GSem nD τ sig := (thr d L, SemLoc.dma cc0_scratch3.sem)
abbrev cell4 (d : Dev nD) (L : grid0.Coords) : GSem nD τ sig := (thr d L, SemLoc.dma cc0_scratch4.sem)
abbrev cell5 (d : Dev nD) (L : grid0.Coords) : GSem nD τ sig := (thr d L, SemLoc.dma cc0_scratch5.sem)
abbrev cell6 (d : Dev nD) (L : grid0.Coords) : GSem nD τ sig := (thr d L, SemLoc.dma cc0_scratch6.sem)
abbrev cellS (d : Dev nD) (L : grid0.Coords) : GSem nD τ sig := (thr d L, SemLoc.dma cc0_scoped0.sem)

/-- Two cells of one thread at distinct semaphores are distinct. -/
theorem cell_ne {a b : SemLoc sig} (h : a ≠ b) : ((thr d L, a) : GSem nD τ sig) ≠ (thr d L, b) :=
  fun e => h (Prod.mk.inj e).2

/-- The rest of the tile's own cells, the six named ones taken out, each at zero. -/
def semRest (d : Dev nD) (L : grid0.Coords) : sProp 𝕄 :=
  bigSep (((((((ownCells (thr d L)).erase (cell2 d L)).erase (cell3 d L)).erase (cell4 d L)).erase (cell5 d L)).erase (cell6 d L)).erase (cellS d L))
    fun g => semVal g 0

omit [FloatOps F] in
/-- The tile's own cells at zero are the six named ones at zero and the rest at zero: each of the six is a cell of
    this thread in its scope, and they are pairwise distinct. -/
theorem ownSems0_V :
    (ownSems0 (thr d L) : sProp 𝕄)
      = iprop(semVal (thr d L, SemLoc.dma cc0_scratch2.sem) 0 ∗ semVal (thr d L, SemLoc.dma cc0_scratch3.sem) 0
          ∗ semVal (thr d L, SemLoc.dma cc0_scratch4.sem) 0 ∗ semVal (thr d L, SemLoc.dma cc0_scratch5.sem) 0
          ∗ semVal (thr d L, SemLoc.dma cc0_scratch6.sem) 0 ∗ semVal (thr d L, SemLoc.dma cc0_scoped0.sem) 0 ∗ semRest d L) := by
  have h2 : cell2 d L ∈ ownCells (thr d L) := (mem_ownCells (g := cell2 d L)).mpr ⟨rfl, by
    show (SemLoc.dma cc0_scratch2.sem : SemLoc sig).isScoped .scVector = true; decide⟩
  have h3 : cell3 d L ∈ ownCells (thr d L) := (mem_ownCells (g := cell3 d L)).mpr ⟨rfl, by
    show (SemLoc.dma cc0_scratch3.sem : SemLoc sig).isScoped .scVector = true; decide⟩
  have h4 : cell4 d L ∈ ownCells (thr d L) := (mem_ownCells (g := cell4 d L)).mpr ⟨rfl, by
    show (SemLoc.dma cc0_scratch4.sem : SemLoc sig).isScoped .scVector = true; decide⟩
  have h5 : cell5 d L ∈ ownCells (thr d L) := (mem_ownCells (g := cell5 d L)).mpr ⟨rfl, by
    show (SemLoc.dma cc0_scratch5.sem : SemLoc sig).isScoped .scVector = true; decide⟩
  have h6 : cell6 d L ∈ ownCells (thr d L) := (mem_ownCells (g := cell6 d L)).mpr ⟨rfl, by
    show (SemLoc.dma cc0_scratch6.sem : SemLoc sig).isScoped .scVector = true; decide⟩
  have hS : cellS d L ∈ ownCells (thr d L) := (mem_ownCells (g := cellS d L)).mpr ⟨rfl, by
    show (SemLoc.dma cc0_scoped0.sem : SemLoc sig).isScoped .scVector = true; decide⟩
  have n32 : cell3 d L ≠ cell2 d L := cell_ne d L (by decide)
  have n42 : cell4 d L ≠ cell2 d L := cell_ne d L (by decide)
  have n43 : cell4 d L ≠ cell3 d L := cell_ne d L (by decide)
  have n52 : cell5 d L ≠ cell2 d L := cell_ne d L (by decide)
  have n53 : cell5 d L ≠ cell3 d L := cell_ne d L (by decide)
  have n54 : cell5 d L ≠ cell4 d L := cell_ne d L (by decide)
  have n62 : cell6 d L ≠ cell2 d L := cell_ne d L (by decide)
  have n63 : cell6 d L ≠ cell3 d L := cell_ne d L (by decide)
  have n64 : cell6 d L ≠ cell4 d L := cell_ne d L (by decide)
  have n65 : cell6 d L ≠ cell5 d L := cell_ne d L (by decide)
  have nS2 : cellS d L ≠ cell2 d L := cell_ne d L (by decide)
  have nS3 : cellS d L ≠ cell3 d L := cell_ne d L (by decide)
  have nS4 : cellS d L ≠ cell4 d L := cell_ne d L (by decide)
  have nS5 : cellS d L ≠ cell5 d L := cell_ne d L (by decide)
  have nS6 : cellS d L ≠ cell6 d L := cell_ne d L (by decide)
  unfold SparseCore.Cfg.ownSems0 semRest
  rw [SparseCore.bigSep_erase' h2,
    SparseCore.bigSep_erase' (Finset.mem_erase_of_ne_of_mem n32 h3),
    SparseCore.bigSep_erase' (Finset.mem_erase_of_ne_of_mem n43 (Finset.mem_erase_of_ne_of_mem n42 h4)),
    SparseCore.bigSep_erase' (Finset.mem_erase_of_ne_of_mem n54 (Finset.mem_erase_of_ne_of_mem n53 (Finset.mem_erase_of_ne_of_mem n52 h5))),
    SparseCore.bigSep_erase' (Finset.mem_erase_of_ne_of_mem n65 (Finset.mem_erase_of_ne_of_mem n64 (Finset.mem_erase_of_ne_of_mem n63
      (Finset.mem_erase_of_ne_of_mem n62 h6)))),
    SparseCore.bigSep_erase' (Finset.mem_erase_of_ne_of_mem nS6 (Finset.mem_erase_of_ne_of_mem nS5 (Finset.mem_erase_of_ne_of_mem nS4
      (Finset.mem_erase_of_ne_of_mem nS3 (Finset.mem_erase_of_ne_of_mem nS2 hS)))))]

/-! ## The tile's two scratch arrays -/

/-- The rest of the tile's own arrays, the two scratch arrays taken out, each whole at some contents. -/
def bufRest (d : Dev nD) (L : grid0.Coords) : sProp 𝕄 :=
  bigSep (((ownRefs (τ := τ) (.scVector (cV L) (jV L))).erase ((Proc.scVector (cV L) (jV L)).devRef cc0_scratch0)).erase
      ((Proc.scVector (cV L) (jV L)).devRef cc0_scratch1))
    fun b => iprop(∃ f, ((d, b) : Loc nD τ sig) ↦{fullShare} f)

omit [FloatOps F] in
/-- The tile's own arrays, each whole at some contents, are its two scratch arrays and the rest: both are arrays
    this tile owns, and they are distinct. -/
theorem ownBufs_V :
    (ownBufs (thr d L) : sProp 𝕄)
      = iprop((∃ f, (thr d L).loc cc0_scratch0 ↦{fullShare} f) ∗ (∃ f, (thr d L).loc cc0_scratch1 ↦{fullShare} f) ∗ bufRest d L) := by
  unfold SparseCore.Cfg.ownBufs bufRest
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The chunks of the tile's row of the result -/

omit [FloatOps F] in
theorem bound_one : grid0.bound 1 = 16 := rfl
/-- The tile of a grid point, as one of the launch's sixteen. -/
abbrev jL (L : grid0.Coords) : Fin 16 := Fin.cast bound_one (L 1)

omit [FloatOps F] in
/-- The entries of chunk `r` as the body slices it are the entries of its rectangle: a slice of the whole array
    keeps the array's own indices. -/
theorem chSet_rect (r : Fin 4) :
    chSet L r = (Rect.unit (s := S16384) (k0_off2 L (BitVec.ofNat 32 (256 * r.val))) S256.size (k0_off2_inb L r)).set := by
  show ((View.whole (main_v0_scv : Ref sig .scVector)).slice
    (Rect.unit (s := S16384) (k0_off2 L (BitVec.ofNat 32 (256 * r.val))) S256.size (k0_off2_inb L r))).set = _
  rw [View.set_slice]; exact Finset.map_refl

omit [FloatOps F] in
/-- The offset of chunk `r` of the tile's row is `1024·j + 256·r`: the SparseCore coordinate of a grid point of
    this grid is 0. -/
theorem off2_zero (r : Fin 4) : k0_off2 L (BitVec.ofNat 32 (256 * r.val)) 0 = 1024 * (jL L).val + 256 * r.val := by
  have h0 : (L 0).val < 1 := (L 0).isLt
  have e : k0_off2 L (BitVec.ofNat 32 (256 * r.val)) 0 = 1024 * (L 1).val + 1024 * (L 0).val + 256 * r.val :=
    congrFun (k0_off2_eq L r) 0
  have hj : (jL L).val = (L 1).val := rfl
  omega

omit [FloatOps F] in
/-- Chunk `r` as the body slices it is the window the launch dealt: entries `1024·j + 256·r … + 255`. -/
theorem chSet_eq (r : Fin 4) : chSet L r = winAt (1024 * (jL L).val + 256 * r.val) :=
  (chSet_rect L r).trans ((Cert.Proof.LibWindows.rectUnit_set_eq_winAt _ _).trans (congrArg winAt (off2_zero L r)))

omit [FloatOps F] in
/-- The tile's row of the result, held outright at `f`, is its four chunks as the body slices them, each held
    outright at `f`. -/
theorem oRow_chunks (f : Buf (Elt F) (oLoc d)) :
    (oRow d (jL L) f : sProp 𝕄) = iprop((oLoc d ↦[chSet L 0]{fullShare} f) ∗ (oLoc d ↦[chSet L 1]{fullShare} f)
      ∗ (oLoc d ↦[chSet L 2]{fullShare} f) ∗ (oLoc d ↦[chSet L 3]{fullShare} f)) := by
  rw [chSet_eq, chSet_eq, chSet_eq, chSet_eq]
  show (bigSep Finset.univ fun r : Fin 4 => oLoc d ↦[winAt (1024 * (jL L).val + 256 * r.val)]{fullShare} f) = _
  rw [show (Finset.univ : Finset (Fin 4)) = {0, 1, 2, 3} by decide,
    SparseCore.bigSep_insert' (by decide), SparseCore.bigSep_insert' (by decide), SparseCore.bigSep_insert' (by decide), bigSep_singleton]

end Tile

end Cert.Proof.LaunchI

end
-- ==== Proof.SplitI.lean ====
/-
  The launch side of the lookup kernel's run: how the one call's operands are dealt to the sixteen tiles and
  gathered again, the launch element of the ghost state, the TensorCore's program around the call, and what the
  final memory says.

  The index list and the table are read by every tile and written by none, so each goes out as sixteen read
  tokens of its full share; what remains of the share after the sixteen tokens is handed to no tile and waits for
  them, and the remainder with the sixteen tokens is the full share again. The result array is written, each tile
  its own part: the array is the disjoint union of its 16 rows of 1024 entries, and a row the disjoint union of its
  4 chunks of 256, so holding the array outright is holding every chunk of every row outright, at the same
  contents; read from right to left, chunks that all hold one function `g` are the array holding `g`.
-/
import proofs.«203133_g87995289960615_cont_sun_m_739_20_alg».proof.Proof.SetupI

noncomputable section

namespace Cert.Proof.LaunchI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

variable (m : (ℓ : Loc nD τ sig) → Buf (Elt F) ℓ) (ρ : Dev nD → PrngReg)

/-! ## The result array as its rows, a row as its chunks -/

/-- The result array held outright is its sixteen rows held outright, at the same contents: the rows are pairwise
    disjoint and their union is every index. -/
theorem oPts_rows (d : Dev nD) (f : Buf (Elt F) (oLoc d)) :
    (oLoc d ↦{fullShare} f : sProp (MM F)) = bigSep Finset.univ fun i : Fin 16 => oLoc d ↦[rowAt i.val]{fullShare} f := by
  rw [← pointsTo_biUnion Finset.univ (ℓ := oLoc d) (fun i : Fin 16 => rowAt i.val) Cert.Proof.LibWindows.rows_disjoint,
    Cert.Proof.LibWindows.rows_cover]; try rfl

/-- Row `i` held outright is its four chunks held outright, at the same contents: the chunks of a row are pairwise
    disjoint and their union is the row. -/
theorem oRow_eq (d : Dev nD) (i : Fin 16) (f : Buf (Elt F) (oLoc d)) :
    (oLoc d ↦[rowAt i.val]{fullShare} f : sProp (MM F)) = oRow d i f := by
  rw [← Cert.Proof.LibWindows.wins_cover i.val,
    pointsTo_biUnion Finset.univ (ℓ := oLoc d) (fun r : Fin 4 => winAt (1024 * i.val + 256 * r.val))
      (Cert.Proof.LibWindows.wins_disjoint i.val)]

/-- The result array held outright is every chunk of every row held outright, at the same contents. Read from left
    to right it deals the array to the tiles; from right to left it gathers chunks that all hold `f`. -/
theorem oPts_split (d : Dev nD) (f : Buf (Elt F) (oLoc d)) :
    (oPts d f : sProp (MM F)) = bigSep Finset.univ fun i : Fin 16 => oRow d i f :=
  (oPts_rows d f).trans (bigSep_congr fun i _ => oRow_eq d i f)

/-- A family over the call's tasks is the same family over `Fin 16`: the call has sixteen tasks. -/
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

/-! ## The split of the call's operands among its tiles -/

/-- From the three arrays held whole to every tile's two read tokens and its row's four chunks; and back, once every
    tile has brought its tokens and its chunks holding the lookup, to the three arrays held whole, the result array at
    the lookup. The remainders of the two read shares are kept across the call and joined with the tokens at its end. -/
theorem vecSplit : (K (F := F)).VecSplit' (P m) 0 := by
  intro d c
  show iprop(iPts m d ∗ xPts m d ∗ oPts d (m (oLoc d))) ⊢ |={Set.univ}=> iprop(
      (bigSep Finset.univ fun i : Fin ((K (F := F)).nSub 0) =>
        iprop(iTok m d (Fin.cast nSub_zero i) ∗ xTok m d (Fin.cast nSub_zero i) ∗ oRow d (Fin.cast nSub_zero i) (m (oLoc d))))
      ∗ ((bigSep Finset.univ fun i : Fin ((K (F := F)).nSub 0) =>
          iprop(iTok m d (Fin.cast nSub_zero i) ∗ xTok m d (Fin.cast nSub_zero i) ∗ oRow d (Fin.cast nSub_zero i) (G m d)))
          -∗ iprop(iPts m d ∗ xPts m d ∗ oPts d (G m d))))
  rw [bigSep_tasks (F := F) (fun i => iprop(iTok m d i ∗ xTok m d i ∗ oRow d i (m (oLoc d)))),
    bigSep_tasks (F := F) (fun i => iprop(iTok m d i ∗ xTok m d i ∗ oRow d i (G m d))), bigSep_sep', bigSep_sep', bigSep_sep', bigSep_sep']
  rw [oPts_split d (m (oLoc d)), oPts_split d (G m d)]
  iintro ⟨Hi, Hx, Ho⟩
  ihave Hi' := (Transfers.pointsTo_toks_split (ℓ := iLoc d) (S := Finset.univ) (f := m (iLoc d)) fullShare 16) $$ Hi
  icases Hi' with ⟨Hid, Hit⟩
  ihave Hx' := (Transfers.pointsTo_toks_split (ℓ := xLoc d) (S := Finset.univ) (f := m (xLoc d)) fullShare 16) $$ Hx
  icases Hx' with ⟨Hxd, Hxt⟩
  imodintro
  isplitl [Hit Hxt Ho]
  · isplitl [Hit]; · iexact Hit
    isplitl [Hxt]; · iexact Hxt
    iexact Ho
  iintro ⟨Hit, Hxt, Ho⟩
  isplitl [Hid Hit]
  · iapply (Transfers.pointsTo_toks_join (ℓ := iLoc d) (S := Finset.univ) (f := m (iLoc d)) fullShare 16)
    isplitl [Hid]; · iexact Hid
    iexact Hit
  isplitl [Hxd Hxt]
  · iapply (Transfers.pointsTo_toks_join (ℓ := xLoc d) (S := Finset.univ) (f := m (xLoc d)) fullShare 16)
    isplitl [Hxd]; · iexact Hxd
    iexact Hxt
  iexact Ho

/-! ## The launch element of the ghost state -/

/-- The launch element: the handshakes' rounds at their start beside the unit of the transfers' counters. -/
def u₀ : UU := (initOf (K (F := F)).hsCells (K (F := F)).hsToks, 1)

/-- A separating conjunction of `emp`s is `emp`. -/
theorem bigSep_emp' {I : Type} (s : Finset I) : (bigSep s fun _ => iprop(emp)) = (iprop(emp) : sProp (MM F)) := bigSep_emp_const s

/-- Owning the launch element gives the handshakes' rounds at their start; no device and no thread is owed anything
    more, the transfers' counters being dropped. -/
theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The TensorCore's program -/

/-- The TensorCore's buffers that no scope allocates are the index list, the table and the result array. -/
theorem unscopedBufs_eq (d : Dev nD) (W : (b : Ref sig .tc) → Buf (Elt F) ((d.tc : Thread nD τ).loc b)) :
    (unscopedBufs d W : sProp (MM F)) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The call runs on one SparseCore, so what the call takes over its SparseCores is what that one takes; -/
theorem st0_eq (d : Dev nD) : (bigSep Finset.univ fun c : Fin ((K (F := F)).nCore 0) => (P m).st 0 d c) = iprop(iPts m d ∗ xPts m d ∗ oPts d (m (oLoc d))) :=
  bigSep_univ_of_subsingleton (0 : Fin 1)
/-- and what it hands back is what that one hands back. -/
theorem dn0_eq (d : Dev nD) : (bigSep Finset.univ fun c : Fin ((K (F := F)).nCore 0) => (P m).dn 0 d c) = iprop(iPts m d ∗ xPts m d ∗ oPts d (G m d)) :=
  bigSep_univ_of_subsingleton (0 : Fin 1)

/-- What the TensorCore holds when its program ends: the index list and the table as launched, the result array
    at the lookup. -/
abbrev FIN (d : Dev nD) : sProp (MM F) := iprop(iPts m d ∗ xPts m d ∗ oPts d (G m d))

/-- The TensorCore's program on device `d`: the one call, from the three arrays held whole to the three arrays held
    whole, the result array at the lookup. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitl [Hi]; · iexact Hi
  isplitl [Hx]; · iexact Hx
  iexact Ho

/-! ## What the final memory says -/

/-- The final memory of device `d`: the result array is the lookup, the index list and the table are as launched. -/
def fq (d : Dev nD) (s' : Phys nD τ sig (Elt F)) : Prop :=
  s'.mem.mem (oLoc d) = G m d ∧ s'.mem.mem (iLoc d) = m (iLoc d) ∧ s'.mem.mem (xLoc d) = m (xLoc d)

/-- An array held outright at `f` is `f` in the memory: so the three arrays held at the end say the final memory. -/
theorem hfin (d : Dev nD) (s' : Phys nD τ sig (Elt F)) : iprop(FIN m d ∗ SI s') ⊢ (⌜fq m d s'⌝ : sProp (MM F)) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

end Cert.Proof.LaunchI

end
-- ==== Proof.RunI.lean ====
/-
  From one tile's task to the kernel's run.

  The tile's task, as the launch hands it its resources: two read tokens, its row of the result as the four windows
  the launch dealt, and its own arrays and transfer cells under the launch's names. Opening those into the pieces
  the task's body names — the two scratch arrays, the six cells, the rest; the row as the four chunks the body
  slices — the task is the body's run from those pieces, the rest carried along as a frame, and what comes back is
  reassembled under the launch's names, the row holding the lookup.

  Every tile's task meeting its obligation, the call's operands split among the tiles and joined again, the launch
  element, the TensorCore's program around the one call and the reading of the final memory are the arguments of the
  launch theorem of the SparseCore library; its conclusion is the program's run: under the range of every device's
  index list, every weakly fair execution from the launch memory ends, the result array holding the lookup of the
  index list in the table and both of those unchanged.
-/
import proofs.«203133_g87995289960615_cont_sun_m_739_20_alg».proof.Proof.TileI
import proofs.«203133_g87995289960615_cont_sun_m_739_20_alg».proof.Proof.TileOpenI
import proofs.«203133_g87995289960615_cont_sun_m_739_20_alg».proof.Proof.SplitI

noncomputable section

namespace Cert.Proof.LaunchI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

local notation "𝕄" => MM F

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S39731 EltTy.i32)
local notation "oV" => (Memref.whole Cert.KernelIdeal.main_v0_scv : Memref Cert.KernelIdeal.sig Kind.scVector Space.hbm Cert.KernelIdeal.S16384 EltTy.i32)
local notation "sV" => (Memref.whole Cert.KernelIdeal.cc0_scratch0 : Memref Cert.KernelIdeal.sig Kind.scVector Space.vmem Cert.KernelIdeal.S1024 EltTy.i32)
local notation "rV" => (Memref.whole Cert.KernelIdeal.cc0_scratch1 : Memref Cert.KernelIdeal.sig Kind.scVector Space.vmem Cert.KernelIdeal.S1024 EltTy.i32)

variable [FloatOps F]

section Tile
variable (d : Dev nD) (L : grid0.Coords)

/-! ## The tile's task from what the launch hands it -/

set_option maxHeartbeats 1000000 in
/-- The task of the tile at grid point `L` of device `d`, from what the launch hands it — its two read tokens and its
    row of the result as the launch's four windows, its own arrays and cells as the launch names them — to the same
    back, the row holding the lookup. The tile's own arrays and cells are opened into the two scratch arrays, the six
    transfer cells and the rest; the row into the four chunks as the body slices them; the body's run from those
    pieces is `tile_core`, the rest carried through as its frame. -/
theorem tile_body (hF : (K (F := F)).Facts) (hpre : Cert.Proof.Spec.InRange (m (iLoc d))) (O : CellTallies nD τ sig (HIx 1))
    (W : Waits sig (HIx 1)) (hO : ∀ g, O g none = 0) :
    iprop(levAts (K (F := F)).L (K (F := F)).lev ∗ emp ∗ (iTok m d (jL L) ∗ xTok m d (jL L) ∗ oRow d (jL L) (m (oLoc d)))
        ∗ scopedBufs (thr d L) ∗ scopedSems0 (thr d L) ∗ owes (thr d L) O W)
      ⊢ wp frame (wpE (defs₀ (F := F)) 𝒱₀ (thr d L) none) Set.univ
          (cc0__gather_kernel L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scoped0)
          fun _ => iprop((iTok m d (jL L) ∗ xTok m d (jL L) ∗ oRow d (jL L) (G m d)) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L),
    ownSems0_V d L, ownBufs_V d L, oRow_chunks d L, oRow_chunks d L]
  iintro ⟨#Hlv, -, ⟨Hi, Hx, Ho0, Ho1, Ho2, Ho3⟩, ⟨⟨%fs, Hs⟩, ⟨%fr, Hr⟩, Hbufs⟩, ⟨H2, H3, H4, H5, H6, HS, Hsems⟩, HO⟩
  ihave Hmw := ((K (F := F)).mayWaits_none (thr := thr d L) hO) $$ Hlv
  iapply ((tile_core m d L hpre O W (qT (jL L)) (qT (jL L)) fs fr (m (oLoc d)) trivial iprop(bufRest d L ∗ semRest d L)).trans
    (wp_mono frame _ _ fun _ => ?post)) $$ [Hmw Hi Hx Ho0 Ho1 Ho2 Ho3 Hs Hr H2 H3 H4 H5 H6 HS HO Hbufs Hsems]
  case post =>
    iintro ⟨Hi, Hx, Ho0, Ho1, Ho2, Ho3, Hs, Hr, H2, H3, H4, H5, H6, HS, HO, Hbufs, Hsems⟩
    isplitl [Hi Hx Ho0 Ho1 Ho2 Ho3]
    · isplitl [Hi]; · iexact Hi
      isplitl [Hx]; · iexact Hx
      isplitl [Ho0]; · iexact Ho0
      isplitl [Ho1]; · iexact Ho1
      isplitl [Ho2]; · iexact Ho2
      iexact Ho3
    isplitl [Hs Hr Hbufs]
    · isplitl [Hs]; · iexact Hs
      isplitl [Hr]; · iexact Hr
      iexact Hbufs
    isplitl [H2 H3 H4 H5 H6 HS Hsems]
    · isplitl [H2]; · iexact H2
      isplitl [H3]; · iexact H3
      isplitl [H4]; · iexact H4
      isplitl [H5]; · iexact H5
      isplitl [H6]; · iexact H6
      isplitl [HS]; · iexact HS
      iexact Hsems
    iexact HO
  isplitl [Hmw]; · iexact Hmw
  isplitl [Hi]; · iexact Hi
  isplitl [Hx]; · iexact Hx
  isplitl [Ho0]; · iexact Ho0
  isplitl [Ho1]; · iexact Ho1
  isplitl [Ho2]; · iexact Ho2
  isplitl [Ho3]; · iexact Ho3
  isplitl [Hs]; · iexact Hs
  isplitl [Hr]; · iexact Hr
  isplitl [H2]; · iexact H2
  isplitl [H3]; · iexact H3
  isplitl [H4]; · iexact H4
  isplitl [H5]; · iexact H5
  isplitl [H6]; · iexact H6
  isplitl [HS]; · iexact HS
  isplitl [HO]; · iexact HO
  isplitl [Hbufs]; · iexact Hbufs
  iexact Hsems

end Tile

/-! ## The launch theorem's obligations -/

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The program of vector subcore `(c, s)` in the call is the kernel at that grid point, where the grid has one. -/
theorem defs₀_vector (c : Fin τ.nSC) (s : Fin τ.nSub) :
    defs₀ (F := F) (.scVector c s) 0 ()
      = SparseCore.onTile hcore0 hsub0 (fun c s => cc0__gather_kernel (coordsV c s)
          iV (Memref.isWhole_whole _) xV (Memref.isWhole_whole _) oV (Memref.isWhole_whole _)
          sV (Memref.isWhole_whole _) rV (Memref.isWhole_whole _) cc0_scratch2 cc0_scratch3 cc0_scratch4 cc0_scratch5 cc0_scratch6 cc0_scoped0) ⟨⟩ c s := rfl

omit [FloatOps F] in
/-- Waits recorded on no handshake are among those the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets its obligation: it is the task at the tile's grid point, under the range of that
    device's index list. -/
theorem tileObl (hF : (K (F := F)).Facts) (hpre : ∀ d : Dev nD, Cert.Proof.Spec.InRange (m (iLoc d))) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hpre d) O W hO).trans (wp_mono frame _ _ fun _ => obl_post)

/-! ## The program's run -/

/-- What the run ends at: on every device the result array is the lookup of the launch memory's index list in its
    table, and the index list and the table are as launched. -/
def QC : PUnit × MemSt nD τ sig (Elt F) → Prop :=
  fun r => ∀ c : Dev nD, r.2.mem (oLoc c) = G m c ∧ r.2.mem (iLoc c) = m (iLoc c) ∧ r.2.mem (xLoc c) = m (xLoc c)

/-- The program's run: under the range of every device's index list, every weakly fair execution from the launch
    memory ends, and ends there. -/
theorem run_main [∀ e, Nonempty (Elt F e)] (hpre : ∀ d : Dev nD, Cert.Proof.Spec.InRange (m (iLoc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.LaunchI

end
-- ==== Proof.SetupB.lean ====
/-
  The launch of the lookup kernel, as the launch theorem of the SparseCore library sees it: one call of a
  vector-subcore kernel on sixteen tiles of one SparseCore. Stated here: the configuration, the ghost state (the
  handshakes' rounds beside the transfers' counters), the three arrays, and what the handshakes carry.

  The call takes the index list, the table and the result array whole. Tile `i` is handed a read share of the
  whole index list, a read share of the whole table, and — outright — the four chunks of 256 entries that make
  row `i` (entries 1024·i … 1024·i+1023) of the result. It brings the shares back and the four chunks holding the
  lookup `Spec.take idx tbl` there; the call hands back the result array holding the lookup everywhere.
-/
import proofs.«203133_g87995289960615_cont_sun_m_739_20_alg».proof.Kernel
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic
import proofs.«203133_g87995289960615_cont_sun_m_739_20_alg».proof.Proof.Gen.Kernel
import proofs.«203133_g87995289960615_cont_sun_m_739_20_alg».proof.Proof.Gen.Kernel.Skeleton
import proofs.«203133_g87995289960615_cont_sun_m_739_20_alg».proof.Proof.Spec
import proofs.«203133_g87995289960615_cont_sun_m_739_20_alg».proof.Proof.LibWindows

noncomputable section

namespace Cert.Proof.LaunchB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The model of the separation logic at this program's signature and this ghost state. -/
abbrev MM (F : FTy → Type) : Type := MT nD τ sig (HIx 1) (Elt F) ℕ UU ℕ

abbrev EH : Emb UH (MM F) := embL

/-! ## The launch memory and the three arrays -/

variable (m : (ℓ : Loc nD τ sig) → Buf (Elt F) ℓ) (ρ : Dev nD → PrngReg)

/-- The index list, the table and the result array of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The lookup of the launch memory's index list in its table: what the result array ends at. -/
abbrev G (d : Dev nD) : Buf (Elt F) (oLoc d) := Cert.Proof.Spec.take (m (iLoc d)) (m (xLoc d))

/-- Tile `i`'s read share of an array held whole: the `i`-th of sixteen read tokens of the full share. -/
abbrev qT (i : Fin 16) : PosShare TreeShare := Transfers.shareTok fullShare 16 i

/-! ## What the handshakes carry -/

abbrev iPts (d : Dev nD) : sProp (MM F) := iLoc d ↦{fullShare} m (iLoc d)
abbrev xPts (d : Dev nD) : sProp (MM F) := xLoc d ↦{fullShare} m (xLoc d)
abbrev oPts (d : Dev nD) (f : Buf (Elt F) (oLoc d)) : sProp (MM F) := oLoc d ↦{fullShare} f
abbrev iTok (d : Dev nD) (i : Fin 16) : sProp (MM F) := iLoc d ↦{qT i} m (iLoc d)
abbrev xTok (d : Dev nD) (i : Fin 16) : sProp (MM F) := xLoc d ↦{qT i} m (xLoc d)
/-- Chunk `r` of row `i` of the result array, held outright at contents `f`. -/
abbrev oWin (d : Dev nD) (i : Fin 16) (r : Fin 4) (f : Buf (Elt F) (oLoc d)) : sProp (MM F) :=
  oLoc d ↦[winAt (1024 * i.val + 256 * r.val)]{fullShare} f
/-- Row `i` of the result array as its four chunks. -/
abbrev oRow (d : Dev nD) (i : Fin 16) (f : Buf (Elt F) (oLoc d)) : sProp (MM F) :=
  bigSep Finset.univ fun r : Fin 4 => oWin d i r f

/-- The one call takes the three arrays whole and hands them back, the result array at the lookup; tile `i` takes
    its two read shares and its row's four chunks, and brings them back, the chunks at the lookup. -/
def P : (K (F := F)).Pay (nD := nD) (Val := Elt F) (Name := ℕ) (U := UU) where
  st := fun q d _ => match q with | 0 => iprop(iPts m d ∗ xPts m d ∗ oPts d (m (oLoc d)))
  dn := fun q d _ => match q with | 0 => iprop(iPts m d ∗ xPts m d ∗ oPts d (G m d))
  go := fun q d _ i => match q with
    | 0 => iprop(iTok m d (Fin.cast nSub_zero i) ∗ xTok m d (Fin.cast nSub_zero i) ∗ oRow d (Fin.cast nSub_zero i) (m (oLoc d)))
  td := fun q d _ i => match q with
    | 0 => iprop(iTok m d (Fin.cast nSub_zero i) ∗ xTok m d (Fin.cast nSub_zero i) ∗ oRow d (Fin.cast nSub_zero i) (G m d))
  x := fun _ _ => iprop(emp)

instance P_storable : (P (F := F) m).IsStorable where
  st q d _ := match q with
    | 0 => (inferInstance : BI.Storable (upEmb : UEmb _ (MM F)) iprop(iPts m d ∗ xPts m d ∗ oPts d (m (oLoc d))))
  dn q d _ := match q with
    | 0 => (inferInstance : BI.Storable (upEmb : UEmb _ (MM F)) iprop(iPts m d ∗ xPts m d ∗ oPts d (G m d)))
  go q d _ i := match q with
    | 0 => (inferInstance : BI.Storable (upEmb : UEmb _ (MM F))
      iprop(iTok m d (Fin.cast nSub_zero i) ∗ xTok m d (Fin.cast nSub_zero i) ∗ oRow d (Fin.cast nSub_zero i) (m (oLoc d))))
  td q d _ i := match q with
    | 0 => (inferInstance : BI.Storable (upEmb : UEmb _ (MM F))
      iprop(iTok m d (Fin.cast nSub_zero i) ∗ xTok m d (Fin.cast nSub_zero i) ∗ oRow d (Fin.cast nSub_zero i) (G m d)))

end Cert.Proof.LaunchB

end
-- ==== Proof.TileDefsB.lean ====
/-
  One tile's task of the lookup kernel, as the body names things: the thread of a grid point, the tile's row of
  the index list and the four chunks of its row of the result as the body slices them, what the fetch of the
  index words lands in the index scratch, and the tile's arrays respelt from the launch's names to the body's.
-/
import proofs.«203133_g87995289960615_cont_sun_m_739_20_alg».proof.Proof.SetupB

noncomputable section

namespace Cert.Proof.LaunchB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

local notation "𝕄" => MM F

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S39731 EltTy.i32)
local notation "oV" => (Memref.whole Cert.Kernel.main_v0_scv : Memref Cert.Kernel.sig Kind.scVector Space.hbm Cert.Kernel.S16384 EltTy.i32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.i32)

variable [FloatOps F]

section Tile
variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- Chunk `r` of the tile's row of the result, and the tile's row of the index list, as the body slices them. -/
abbrev oCh (L : grid0.Coords) (r : Fin 4) : Memref sig .scVector .hbm S256 .i32 :=
  (oV).slice (Rect.unit (s := S16384) (k0_off2 L (BitVec.ofNat 32 (256 * r.val))) S256.size (k0_off2_inb L r)) (fun _ => rfl)
abbrev chSet (L : grid0.Coords) (r : Fin 4) : Finset S16384.Idx := (oCh L r).view.set
abbrev iRow (L : grid0.Coords) : Memref sig .scVector .hbm S1024 .i32 :=
  (iV).slice (Rect.unit (s := S16384) (k0_off1 L) S1024.size (k0_off1_inb L)) (fun _ => rfl)

/-- What the fetch of the tile's 1024 index words lands in the index scratch. -/
def PAY (d : Dev nD) (L : grid0.Coords) : S1024.Idx → Elt F .i32 :=
  ReadAs.same.apply (View.read (Elt F) (iRow L).view (m (iLoc d)))

omit [FloatOps F] in
theorem pts_i (q : PosShare TreeShare) (f : Buf (Elt F) (iLoc d)) :
    ((iV).view.loc (thr d L) ↦{q} f : sProp 𝕄) = iLoc d ↦{q} f := rfl
omit [FloatOps F] in
theorem pts_x (q : PosShare TreeShare) (f : Buf (Elt F) (xLoc d)) :
    ((xV).view.loc (thr d L) ↦{q} f : sProp 𝕄) = xLoc d ↦{q} f := rfl
omit [FloatOps F] in
theorem pts_o (r : Fin 4) (f : Buf (Elt F) (oLoc d)) :
    ((oCh L r).view.loc (thr d L) ↦[(oCh L r).view.set]{fullShare} f : sProp 𝕄) = oLoc d ↦[chSet L r]{fullShare} f := rfl
omit [FloatOps F] in
theorem pts_s (f : Buf (Elt F) ((thr d L).loc cc0_scratch0)) :
    ((sV).view.loc (thr d L) ↦{fullShare} f : sProp 𝕄) = (thr d L).loc cc0_scratch0 ↦{fullShare} f := rfl
omit [FloatOps F] in
theorem pts_r (f : Buf (Elt F) ((thr d L).loc cc0_scratch1)) :
    ((rV).view.loc (thr d L) ↦{fullShare} f : sProp 𝕄) = (thr d L).loc cc0_scratch1 ↦{fullShare} f := rfl

end Tile

end Cert.Proof.LaunchB

end
-- ==== Proof.ValueB.lean ====
/-
  The value of one chunk of the result after a tile's task: the four gathers land, in the four windows of the value
  scratch, the table read at the rows the four windows of the index scratch name; those words are the tile's row of
  the index list; the copy-out of window `r` carries that window to chunk `r` of the tile's row of the result. So
  entry `j` of the chunk ends at the table's entry at the position that word `j` of the index list names: the lookup.
-/
import proofs.«203133_g87995289960615_cont_sun_m_739_20_alg».proof.Proof.TileDefsB

noncomputable section

namespace Cert.Proof.LaunchB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

local notation "𝕄" => MM F

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S39731 EltTy.i32)
local notation "oV" => (Memref.whole Cert.Kernel.main_v0_scv : Memref Cert.Kernel.sig Kind.scVector Space.hbm Cert.Kernel.S16384 EltTy.i32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.i32)

variable [FloatOps F]

section Tile
variable (d : Dev nD) (L : grid0.Coords)

/-! ## The windows of the two scratch buffers, and the in-range fact in the form the run of the body asks it -/

/-- The table as the body slices it (all of it). -/
abbrev xAll : Memref sig .scVector .hbm S39731 .i32 :=
  (xV).slice (Rect.unit (s := S39731) ![0] S39731.size inb_S39731_S39731_0) (fun _ => rfl)

theorem win_inb : ∀ (r : Fin 4) (a : Fin 1), (![256 * r.val] : Fin 1 → ℕ) a + S256.size a ≤ S1024.size a := by decide

/-- Window `r` (entries 256·r … 256·r+255) of a scratch buffer of 1024 words. -/
abbrev wRect (r : Fin 4) : Rect S1024 := Rect.unit (s := S1024) ![256 * r.val] S256.size (win_inb r)
abbrev sWin (r : Fin 4) : Memref sig .scVector .vmem S256 .i32 := (sV).slice (wRect r) (fun _ => rfl)
abbrev rWin (r : Fin 4) : Memref sig .scVector .vmem S256 .i32 := (rV).slice (wRect r) (fun _ => rfl)

/-- The index scratch once the fetch of the tile's index words has landed over prior contents `g`. -/
abbrev SIdx (g : Buf (Elt F) ((sV).view.loc (thr d L))) (pay : S1024.Idx → Elt F .i32) : Buf (Elt F) ((sV).view.loc (thr d L)) :=
  View.write (Elt F) (sV).view g pay Finset.univ

/-- Every word of every 256-word window of the index scratch, once the payload `pay` has landed, names an entry of
    the table: the fact each gather's issue asks for, for any prior contents and any window. -/
abbrev HIdx (pay : S1024.Idx → Elt F .i32) : Prop :=
  ∀ (g : Buf (Elt F) ((sV).view.loc (thr d L))) (off : Fin 1 → ℕ) (h : ∀ a, off a + S256.size a ≤ S1024.size a)
    (hs : ∀ a, (Rect.unit (s := S1024) off S256.size h).stride a = 1) (x : (Rect.unit (s := S1024) off S256.size h).shape.Idx),
    (View.read (Elt F) ((sV).slice (Rect.unit (s := S1024) off S256.size h) hs).view (SIdx d L g pay) x).toNat < 39731

open Idealize.ShloMosaic.ValueIdx (ix1)

/-! ## Coordinates of the slices' elements, and the scratch contents read at an entry -/

omit [FloatOps F] in
/-- Element `y` of chunk `r` of the tile's row of the result is entry `1024·(L 1) + 1024·(L 0) + 256·r + y` of the array. -/
theorem oCh_emb_val (r : Fin 4) (y : S256.Idx) :
    ((oCh L r).view.emb y 0).val = 1024 * (L 1).val + 1024 * (L 0).val + 256 * r.val + (y 0).val := by
  show (k0_off2 L (BitVec.ofNat 32 (256 * r.val))) 0 + 1 * (y 0).val = _
  rw [k0_off2_eq L r]
  simp only [Matrix.cons_val_zero, Nat.one_mul]

omit [FloatOps F] in
/-- Element `z` of the tile's row of the index list is entry `1024·(L 1) + 1024·(L 0) + z` of the list. -/
theorem iRow_emb_val (z : S1024.Idx) :
    ((iRow L).view.emb z 0).val = 1024 * (L 1).val + 1024 * (L 0).val + (z 0).val := by
  show (k0_off1 L) 0 + 1 * (z 0).val = _
  rw [k0_off1_eq L]
  simp only [Matrix.cons_val_zero, Nat.one_mul]

omit [FloatOps F] in
/-- Element `y` of window `r` of a scratch buffer is its entry `256·r + y`. -/
theorem wRect_emb_val (r : Fin 4) (y : S256.Idx) : ((wRect r).emb y 0).val = 256 * r.val + (y 0).val := by
  show (![256 * r.val] : Fin 1 → ℕ) 0 + 1 * (y 0).val = _
  simp only [Matrix.cons_val_zero, Nat.one_mul]

/-- The fetched payload at entry `z` is the index list at the element of the tile's row under `z`. -/
theorem PAY_apply (z : S1024.Idx) : PAY m d L z = m (iLoc d) ((iRow L).view.emb z) := rfl

/-- Landed whole over any prior contents, the payload is the index scratch's contents. -/
theorem SIdx_eq (g : Buf (Elt F) ((sV).view.loc (thr d L))) (pay : S1024.Idx → Elt F .i32) : SIdx d L g pay = pay :=
  View.write_whole_univ (Val := Elt F) (κ := Kind.scVector) cc0_scratch0 g pay

omit [FloatOps F] in
/-- The whole rectangle places an index at itself. -/
theorem whole_emb (s : Shape) (y : s.Idx) : (Rect.whole s).emb y = y := by
  funext a
  refine Fin.ext ?_
  show 0 + 1 * (y a).val = (y a).val
  omega

omit [FloatOps F] in
/-- In a rank-1 shape the index at row-major position `k` is the one whose coordinate is `k`. -/
theorem rowMajor_symm_one {n : Nat} (y : (⟨1, ![n]⟩ : Shape).Idx) (k : Fin (⟨1, ![n]⟩ : Shape).numel) (hk : k.val = (y 0).val) :
    (⟨1, ![n]⟩ : Shape).rowMajor.symm k = y := by
  rw [Equiv.symm_apply_eq]
  exact Fin.ext (by rw [Shape.rowMajor_val_one]; exact hk)

/-- The fact holds of the fetched index words when the whole index list is in range. -/
theorem inb_of_pre (hpre : Cert.Proof.Spec.InRange (m (iLoc d))) (pay : S1024.Idx → Elt F .i32) (hpay : pay = PAY m d L) :
    HIdx d L pay := by
  subst hpay
  intro g off h hs x
  rw [SIdx_eq]
  exact hpre _

/-- What gather `r` lands in window `r` of the value scratch: the table read at the rows that window `r` of the
    index scratch names. -/
abbrev GP (fs : Buf (Elt F) ((sV).view.loc (thr d L))) (pay : S1024.Idx → Elt F .i32) (hidx : HIdx d L pay) (r : Fin 4) :
    S256.Idx → Elt F .i32 :=
  SparseCore.gatherPayload gathers_S39731_S256 (View.read (Elt F) (xAll).view (m (xLoc d)))
    (SparseCore.rows (View.read (Elt F) (sWin r).view (SIdx d L fs pay)) (rfl : S256.numel = S256.size gathers_S39731_S256.axis')
      (hidx fs ![256 * r.val] (win_inb r) (fun _ => rfl)))

/-- Gather `r`'s payload at element `y`: the table at the position that entry `256·r + y` of the index scratch names. -/
theorem GP_apply (fs : Buf (Elt F) ((sV).view.loc (thr d L))) (pay : S1024.Idx → Elt F .i32) (hidx : HIdx d L pay) (r : Fin 4)
    (y : S256.Idx) (hlt : (pay ((wRect r).emb y)).toNat < 39731) :
    GP m d L fs pay hidx r y = m (xLoc d) (ix1 ⟨(pay ((wRect r).emb y)).toNat, hlt⟩) := by
  show m (xLoc d) ((xAll).view.emb (gathers_S39731_S256.idx _ y)) = _
  congr 1
  funext b
  match b with
  | ⟨0, _⟩ =>
    refine Fin.ext ?_
    show 0 + 1 * (gathers_S39731_S256.idx _ y 0).val = (pay ((wRect r).emb y)).toNat
    rw [Nat.zero_add, Nat.one_mul]
    refine (congrArg Fin.val (Shape.Gathers.idx_axis gathers_S39731_S256 _ y)).trans ?_
    have hrow : S256.rowMajor.symm (Fin.cast (rfl : S256.numel = S256.size gathers_S39731_S256.axis').symm (y gathers_S39731_S256.axis')) = y :=
      rowMajor_symm_one y _ rfl
    refine (congrArg (fun q => (View.read (Elt F) (sWin r).view (SIdx d L fs pay) q).toNat) hrow).trans ?_
    exact congrArg (fun f => (View.read (Elt F) (sWin r).view f y).toNat) (SIdx_eq d L fs pay)

omit [FloatOps F] in
/-- Every element of window `r` of the value scratch lies in one of the four windows written. -/
theorem win_cover (g0 g1 g2 g3 : S256.Idx → Elt F .i32) (r : Fin 4) (y : S256.Idx) :
    ∃ q ∈ ([⟨wRect 3, g3⟩, ⟨wRect 2, g2⟩, ⟨wRect 1, g1⟩, ⟨wRect 0, g0⟩] : List (View.Piece (Elt F) S1024 .i32)),
      (wRect r).emb y ∈ q.1.set := by
  match r with
  | ⟨0, _⟩ => exact ⟨⟨wRect 0, g0⟩, List.mem_cons_of_mem _ (List.mem_cons_of_mem _ (List.mem_cons_of_mem _ List.mem_cons_self)), (wRect 0).idx_mem y⟩
  | ⟨1, _⟩ => exact ⟨⟨wRect 1, g1⟩, List.mem_cons_of_mem _ (List.mem_cons_of_mem _ List.mem_cons_self), (wRect 1).idx_mem y⟩
  | ⟨2, _⟩ => exact ⟨⟨wRect 2, g2⟩, List.mem_cons_of_mem _ List.mem_cons_self, (wRect 2).idx_mem y⟩
  | ⟨3, _⟩ => exact ⟨⟨wRect 3, g3⟩, List.mem_cons_self, (wRect 3).idx_mem y⟩

/-- Window `r` of the value scratch, once the four gathers' payloads have landed in its four windows, read at element
    `y`: the table at the position that entry `256·r + y` of the index scratch names. -/
theorem rWin_read (fs : Buf (Elt F) ((sV).view.loc (thr d L))) (fr : Buf (Elt F) ((rV).view.loc (thr d L)))
    (pay : S1024.Idx → Elt F .i32) (hidx : HIdx d L pay) (hlt : ∀ z, (pay z).toNat < 39731) (r : Fin 4) (y : S256.Idx) :
    View.read (Elt F) (rWin r).view ((rV).view.writes (Elt F) fr
        [⟨wRect 3, GP m d L fs pay hidx 3⟩, ⟨wRect 2, GP m d L fs pay hidx 2⟩, ⟨wRect 1, GP m d L fs pay hidx 1⟩, ⟨wRect 0, GP m d L fs pay hidx 0⟩]) y
      = m (xLoc d) (ix1 ⟨(pay ((wRect r).emb y)).toNat, hlt _⟩) := by
  show View.read (Elt F) (rV).view ((rV).view.writes (Elt F) fr _) ((wRect r).emb y) = _
  refine View.read_writes_apply_of_pieces (κ := Kind.scVector) (sp := Space.vmem) (s := S1024) (e := EltTy.i32) (rV).view fr
    (fun z => m (xLoc d) (ix1 ⟨(pay z).toNat, hlt z⟩)) _ ?_ _ (win_cover _ _ _ _ r y)
  intro q hq x
  simp only [List.mem_cons, List.not_mem_nil, _root_.or_false] at hq
  rcases hq with rfl | rfl | rfl | rfl
  · exact GP_apply m d L fs pay hidx 3 x (hlt _)
  · exact GP_apply m d L fs pay hidx 2 x (hlt _)
  · exact GP_apply m d L fs pay hidx 1 x (hlt _)
  · exact GP_apply m d L fs pay hidx 0 x (hlt _)

/-- THE VALUE OF A CHUNK. Chunk `r` of the tile's row of the result, written whole with the payload `p` that the
    copy-out of window `r` of the value scratch carries — that scratch holding the four gathers' payloads `g0 … g3`
    in its four windows —, holds the lookup at every entry of the chunk. -/
theorem chunk_value (hpre : Cert.Proof.Spec.InRange (m (iLoc d)))
    (fs : Buf (Elt F) ((sV).view.loc (thr d L))) (fr : Buf (Elt F) ((rV).view.loc (thr d L))) (fo : Buf (Elt F) (oLoc d))
    (pay : S1024.Idx → Elt F .i32) (hpay : pay = PAY m d L) (hidx : HIdx d L pay)
    (g0 g1 g2 g3 : S256.Idx → Elt F .i32)
    (hg0 : g0 = GP m d L fs pay hidx 0) (hg1 : g1 = GP m d L fs pay hidx 1)
    (hg2 : g2 = GP m d L fs pay hidx 2) (hg3 : g3 = GP m d L fs pay hidx 3)
    (r : Fin 4) (p : S256.Idx → Elt F .i32)
    (hp : p = ReadAs.same.apply (View.read (Elt F) (rWin r).view
      ((rV).view.writes (Elt F) fr [⟨wRect 3, g3⟩, ⟨wRect 2, g2⟩, ⟨wRect 1, g1⟩, ⟨wRect 0, g0⟩]))) :
    ∀ j ∈ chSet L r, ((oCh L r).view.writes (Elt F) fo [⟨Rect.whole S256, p⟩]) j = G m d j := by
  intro j hj
  have hlt : ∀ z, (pay z).toNat < 39731 := fun z => by rw [hpay]; exact hpre _
  -- the membership as arithmetic on the coordinate, and the chunk's element under `j`
  have hjw : j ∈ winAt ((k0_off2 L (BitVec.ofNat 32 (256 * r.val))) 0) := by
    have e : chSet L r = winAt ((k0_off2 L (BitVec.ofNat 32 (256 * r.val))) 0) :=
      (View.set_slice_whole _ _).trans (Cert.Proof.LibWindows.rectUnit_set_eq_winAt _ (k0_off2_inb L r))
    exact e ▸ hj
  rw [Cert.Proof.LibWindows.mem_winAt, k0_off2_eq L r] at hjw
  simp only [Matrix.cons_val_zero] at hjw
  obtain ⟨y, rfl⟩ : ∃ y : S256.Idx, j = (oCh L r).view.emb y := by
    refine ⟨ix1 ⟨(j 0).val - (1024 * (L 1).val + 1024 * (L 0).val + 256 * r.val), by omega⟩, ?_⟩
    funext a
    match a with
    | ⟨0, _⟩ =>
      refine Fin.ext ?_
      refine Eq.trans ?_ (oCh_emb_val L r _).symm
      show (j 0).val = 1024 * (L 1).val + 1024 * (L 0).val + 256 * r.val + ((j 0).val - (1024 * (L 1).val + 1024 * (L 0).val + 256 * r.val))
      omega
  -- the whole-chunk write read at its own element is the payload there
  have h2 : ((oCh L r).view.writes (Elt F) fo [⟨Rect.whole S256, p⟩]) ((oCh L r).view.emb y) = p y := by
    have h := View.read_writes_cons_emb (oCh L r).view fo (Rect.whole S256) p [] y
    rw [whole_emb] at h
    exact h
  -- the payload is window `r` of the value scratch, whose every entry is the table at the row its index word names
  have h3 : p y = m (xLoc d) (ix1 ⟨(pay ((wRect r).emb y)).toNat, hlt _⟩) := by
    subst hg0 hg1 hg2 hg3
    rw [hp]
    exact rWin_read m d L fs fr pay hidx hlt r y
  -- that index word is the index list's entry under `j`: the lookup
  rw [h2, h3]
  refine (Cert.Proof.Spec.take_eq_of (idx := m (iLoc d)) (m (xLoc d)) _ _ ?_).symm
  show (pay ((wRect r).emb y)).toNat = _
  rw [hpay, PAY_apply]
  congr 2
  funext a
  match a with
  | ⟨0, _⟩ =>
    refine Fin.ext ?_
    refine (iRow_emb_val L _).trans ((congrArg (fun t => 1024 * (L 1).val + 1024 * (L 0).val + t) (wRect_emb_val r y)).trans ?_)
    refine Eq.trans ?_ (oCh_emb_val L r y).symm
    omega

end Tile

end Cert.Proof.LaunchB

end
-- ==== Proof.TileB.lean ====
/-
  One tile's task of the lookup kernel, run: the fetch of the tile's index words, the four gathers of table entries
  into the four windows of the value scratch, and the four copies of those windows out to the four chunks of the
  tile's row of the result. The run is the symbolic executor's; what the chunks hold afterwards is `chunk_value`.
-/
import proofs.«203133_g87995289960615_cont_sun_m_739_20_alg».proof.Proof.ValueB

noncomputable section

namespace Cert.Proof.LaunchB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

local notation "𝕄" => MM F

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S39731 EltTy.i32)
local notation "oV" => (Memref.whole Cert.Kernel.main_v0_scv : Memref Cert.Kernel.sig Kind.scVector Space.hbm Cert.Kernel.S16384 EltTy.i32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.i32)

variable [FloatOps F]

section Tile
variable (d : Dev nD) (L : grid0.Coords)

set_option maxHeartbeats 4000000 in
/-- THE TILE'S TASK, from its resources laid out: a read share of the index list, the table, the four chunks of its row
    of the result outright, its two scratch buffers, its six DMA semaphores at zero. It fetches its 1024 index words,
    issues the four gathers (each on a semaphore of its own, each reading the table through a read token of its own,
    each into its own window of the value scratch from its own window of the index scratch), and after each gather's
    wait copies that window out to its chunk, the four copies on one semaphore and waited for at the end. Back come
    the shares, the chunks holding the lookup, the scratches at some contents, the semaphores at zero; whatever else the tile holds (`R`) is carried through untouched. -/
theorem tile_core (hpre : Cert.Proof.Spec.InRange (m (iLoc d))) (O : CellTallies nD τ sig (HIx 1)) (W : Waits sig (HIx 1))
    (qi qx : PosShare TreeShare)
    (fs : Buf (Elt F) ((thr d L).loc cc0_scratch0)) (fr : Buf (Elt F) ((thr d L).loc cc0_scratch1))
    (fo : Buf (Elt F) (oLoc d))
    (_plan : Transfers.BatchOf (thr d L) (SemLoc.dma (sig := sig) cc0_scratch6.sem) 4) (R : sProp 𝕄) :
    (iprop(Transfers.MayWaits (thr d L) (default : HIx 1) O
        ∗ (iLoc d ↦{qi} m (iLoc d))
        ∗ (xLoc d ↦{qx} m (xLoc d))
        ∗ (oLoc d ↦[chSet L 0]{fullShare} fo)
        ∗ (oLoc d ↦[chSet L 1]{fullShare} fo)
        ∗ (oLoc d ↦[chSet L 2]{fullShare} fo)
        ∗ (oLoc d ↦[chSet L 3]{fullShare} fo)
        ∗ ((thr d L).loc cc0_scratch0 ↦{fullShare} fs)
        ∗ ((thr d L).loc cc0_scratch1 ↦{fullShare} fr)
        ∗ semVal (thr d L, SemLoc.dma cc0_scratch2.sem) 0 ∗ semVal (thr d L, SemLoc.dma cc0_scratch3.sem) 0
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scoped0.sem) 0
        ∗ owes (thr d L) O W ∗ R) : sProp 𝕄)
      ⊢ wp frame (wpE (defs₀ (F := F)) 𝒱₀ (thr d L) none) Set.univ
          (cc0__gather_kernel L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scoped0)
          fun _ => iprop((iLoc d ↦{qi} m (iLoc d))
            ∗ (xLoc d ↦{qx} m (xLoc d))
            ∗ (oLoc d ↦[chSet L 0]{fullShare} G m d)
            ∗ (oLoc d ↦[chSet L 1]{fullShare} G m d)
            ∗ (oLoc d ↦[chSet L 2]{fullShare} G m d)
            ∗ (oLoc d ↦[chSet L 3]{fullShare} G m d)
            ∗ (∃ f, (thr d L).loc cc0_scratch0 ↦{fullShare} f)
            ∗ (∃ f, (thr d L).loc cc0_scratch1 ↦{fullShare} f)
            ∗ semVal (thr d L, SemLoc.dma cc0_scratch2.sem) 0 ∗ semVal (thr d L, SemLoc.dma cc0_scratch3.sem) 0
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scoped0.sem) 0
            ∗ (∃ W', ⌜∀ p ∈ W', p ∈ W ∨ p.2 = none⌝ ∗ owes (thr d L) O W') ∗ R) := by
  simp only [cc0__gather_kernel_eq_skeleton]; unfold cc0__gather_kernel_skel
  iintro ⟨Hmw, Hi, Hx, Ho0, Ho1, Ho2, Ho3, Hs, Hr, Hs2, Hs3, Hs4, Hs5, Hs6, Hs0, HO, HR⟩
  -- the table as one read token per gather's semaphore, and the remainder
  ihave Hx4 := ((Transfers.pointsTo_toks_split (Ix := HIx 1) (Name := ℕ) (U := UU) (Lvl := ℕ) qx 4).trans
    (show _ ⊢ iprop((xLoc d ↦{Transfers.shareDrop qx 4} m (xLoc d)) ∗ (xLoc d ↦{Transfers.shareTok qx 4 0} m (xLoc d))
        ∗ (xLoc d ↦{Transfers.shareTok qx 4 1} m (xLoc d)) ∗ (xLoc d ↦{Transfers.shareTok qx 4 2} m (xLoc d))
        ∗ (xLoc d ↦{Transfers.shareTok qx 4 3} m (xLoc d)))
      from Entails.of_eq (by
        rw [show (Finset.univ : Finset (Fin 4)) = {0, 1, 2, 3} by decide, SparseCore.bigSep_insert' (by decide),
          SparseCore.bigSep_insert' (by decide), SparseCore.bigSep_insert' (by decide), bigSep_singleton]))) $$ Hx
  icases Hx4 with ⟨Hxr, Hx0, Hx1, Hx2, Hx3⟩
  ihave Hi' := (Entails.of_eq (pts_i (F := F) d L _ _).symm) $$ Hi
  ihave Hxr' := (Entails.of_eq (pts_x (F := F) d L _ _).symm) $$ Hxr
  ihave Hx0' := (Entails.of_eq (pts_x (F := F) d L _ _).symm) $$ Hx0
  ihave Hx1' := (Entails.of_eq (pts_x (F := F) d L _ _).symm) $$ Hx1
  ihave Hx2' := (Entails.of_eq (pts_x (F := F) d L _ _).symm) $$ Hx2
  ihave Hx3' := (Entails.of_eq (pts_x (F := F) d L _ _).symm) $$ Hx3
  ihave Ho0' := (Entails.of_eq (pts_o (F := F) d L 0 _).symm) $$ Ho0
  ihave Ho1' := (Entails.of_eq (pts_o (F := F) d L 1 _).symm) $$ Ho1
  ihave Ho2' := (Entails.of_eq (pts_o (F := F) d L 2 _).symm) $$ Ho2
  ihave Ho3' := (Entails.of_eq (pts_o (F := F) d L 3 _).symm) $$ Ho3
  ihave Hs' := (Entails.of_eq (pts_s (F := F) d L _).symm) $$ Hs
  ihave Hr' := (Entails.of_eq (pts_r (F := F) d L _).symm) $$ Hr
  -- the fetch of the index words and its wait
  sl_exec
  -- the fetched words name entries of the table, at every window of the index scratch
  have hidx : ∀ (g : Buf (Elt F) ((sV).view.loc (thr d L))) (off : Fin 1 → ℕ) (h : ∀ a, off a + S256.size a ≤ S1024.size a)
      (hs : ∀ a, (Rect.unit (s := S1024) off S256.size h).stride a = 1) (x : (Rect.unit (s := S1024) off S256.size h).shape.Idx),
      (View.read (Elt F) ((sV).slice (Rect.unit (s := S1024) off S256.size h) hs).view
        (View.write (Elt F) (sV).view g (tile_core.sl.dma0 m d L) Finset.univ) x).toNat < 39731 :=
    inb_of_pre m d L hpre _ rfl
  -- the four gathers, their waits, the four copies out and their waits
  sl_exec
  sl_step
  -- the chunks hold the lookup
  ihave Hc0 := (Entails.of_eq ((pts_o (F := F) d L 0 _).trans (pointsTo_congr
    (chunk_value m d L hpre fs fr fo (tile_core.sl.dma0 m d L) rfl hidx (tile_core.sl.gather0 m d L fs hidx) (tile_core.sl.gather1 m d L fs hidx)
      (tile_core.sl.gather2 m d L fs hidx) (tile_core.sl.gather3 m d L fs hidx) rfl rfl rfl rfl 0 (tile_core.sl.dma4 m d L fs fr hidx) rfl)))) $$ Ho0'
  ihave Hc1 := (Entails.of_eq ((pts_o (F := F) d L 1 _).trans (pointsTo_congr
    (chunk_value m d L hpre fs fr fo (tile_core.sl.dma0 m d L) rfl hidx (tile_core.sl.gather0 m d L fs hidx) (tile_core.sl.gather1 m d L fs hidx)
      (tile_core.sl.gather2 m d L fs hidx) (tile_core.sl.gather3 m d L fs hidx) rfl rfl rfl rfl 1 (tile_core.sl.dma5 m d L fs fr hidx) rfl)))) $$ Ho1'
  ihave Hc2 := (Entails.of_eq ((pts_o (F := F) d L 2 _).trans (pointsTo_congr
    (chunk_value m d L hpre fs fr fo (tile_core.sl.dma0 m d L) rfl hidx (tile_core.sl.gather0 m d L fs hidx) (tile_core.sl.gather1 m d L fs hidx)
      (tile_core.sl.gather2 m d L fs hidx) (tile_core.sl.gather3 m d L fs hidx) rfl rfl rfl rfl 2 (tile_core.sl.dma6 m d L fs fr hidx) rfl)))) $$ Ho2'
  ihave Hc3 := (Entails.of_eq ((pts_o (F := F) d L 3 _).trans (pointsTo_congr
    (chunk_value m d L hpre fs fr fo (tile_core.sl.dma0 m d L) rfl hidx (tile_core.sl.gather0 m d L fs hidx) (tile_core.sl.gather1 m d L fs hidx)
      (tile_core.sl.gather2 m d L fs hidx) (tile_core.sl.gather3 m d L fs hidx) rfl rfl rfl rfl 3 (tile_core.sl.dma7 m d L fs fr hidx) rfl)))) $$ Ho3'
  isplitl [Hi']; · iapply (Entails.of_eq (pts_i (F := F) d L _ _)); iexact Hi'
  isplitl [Hxr' Hx0' Hx1' Hx2' Hx3']
  · iapply ((show iprop((xLoc d ↦{Transfers.shareDrop qx 4} m (xLoc d)) ∗ (xLoc d ↦{Transfers.shareTok qx 4 0} m (xLoc d))
        ∗ (xLoc d ↦{Transfers.shareTok qx 4 1} m (xLoc d)) ∗ (xLoc d ↦{Transfers.shareTok qx 4 2} m (xLoc d))
        ∗ (xLoc d ↦{Transfers.shareTok qx 4 3} m (xLoc d))) ⊢ _
      from Entails.of_eq (by
        rw [show (Finset.univ : Finset (Fin 4)) = {0, 1, 2, 3} by decide, SparseCore.bigSep_insert' (by decide),
          SparseCore.bigSep_insert' (by decide), SparseCore.bigSep_insert' (by decide), bigSep_singleton])).trans
      (Transfers.pointsTo_toks_join (Ix := HIx 1) (Name := ℕ) (U := UU) (Lvl := ℕ) qx 4))
    isplitl [Hxr']; · iexact Hxr'
    isplitl [Hx0']; · iexact Hx0'
    isplitl [Hx1']; · iexact Hx1'
    isplitl [Hx2']; · iexact Hx2'
    iexact Hx3'
  isplitl [Hc0]; · iexact Hc0
  isplitl [Hc1]; · iexact Hc1
  isplitl [Hc2]; · iexact Hc2
  isplitl [Hc3]; · iexact Hc3
  isplitl [Hs']; · iexists _; iexact Hs'
  isplitl [Hr']; · iexists _; iexact Hr'
  isplitl [Hs2]; · iexact Hs2
  isplitl [Hs3]; · iexact Hs3
  isplitl [Hs4]; · iexact Hs4
  isplitl [Hs5]; · iexact Hs5
  isplitl [Hs6]; · iexact Hs6
  isplitl [Hs0]; · iexact Hs0
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · iexact HR

end Tile

end Cert.Proof.LaunchB

end
-- ==== Proof.TileOpenB.lean ====
/-
  What one tile holds of its own when its task begins, opened into the pieces the task's body names: its six
  transfer cells at zero and its two scratch arrays at some contents, each beside the rest of the tile's own cells
  and arrays; and the four chunks of the tile's row of the result, as the body slices them, identified with the
  windows the launch dealt.

  A chunk as the body slices it is a rectangle of 256 entries of the whole result array at offset
  `1024·j + 1024·c + 256·r`, `j` the tile, `c` the SparseCore of the grid point, `r` the chunk; the grid has one
  SparseCore, so `c = 0` and the rectangle's entries are the window from `1024·j + 256·r`.
-/
import proofs.«203133_g87995289960615_cont_sun_m_739_20_alg».proof.Proof.TileDefsB

noncomputable section

namespace Cert.Proof.LaunchB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

local notation "𝕄" => MM F

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S39731 EltTy.i32)
local notation "oV" => (Memref.whole Cert.Kernel.main_v0_scv : Memref Cert.Kernel.sig Kind.scVector Space.hbm Cert.Kernel.S16384 EltTy.i32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.i32)

variable [FloatOps F]

section Tile
variable (d : Dev nD) (L : grid0.Coords)

/-! ## The tile's six transfer cells -/

/-- The tile's six transfer cells: the five of its scratch semaphores and the one its scope allocates. -/
abbrev cell2 (d : Dev nD) (L : grid0.Coords) : GSem nD τ sig := (thr d L, SemLoc.dma cc0_scratch2.sem)
abbrev cell3 (d : Dev nD) (L : grid0.Coords) : GSem nD τ sig := (thr d L, SemLoc.dma cc0_scratch3.sem)
abbrev cell4 (d : Dev nD) (L : grid0.Coords) : GSem nD τ sig := (thr d L, SemLoc.dma cc0_scratch4.sem)
abbrev cell5 (d : Dev nD) (L : grid0.Coords) : GSem nD τ sig := (thr d L, SemLoc.dma cc0_scratch5.sem)
abbrev cell6 (d : Dev nD) (L : grid0.Coords) : GSem nD τ sig := (thr d L, SemLoc.dma cc0_scratch6.sem)
abbrev cellS (d : Dev nD) (L : grid0.Coords) : GSem nD τ sig := (thr d L, SemLoc.dma cc0_scoped0.sem)

/-- Two cells of one thread at distinct semaphores are distinct. -/
theorem cell_ne {a b : SemLoc sig} (h : a ≠ b) : ((thr d L, a) : GSem nD τ sig) ≠ (thr d L, b) :=
  fun e => h (Prod.mk.inj e).2

/-- The rest of the tile's own cells, the six named ones taken out, each at zero. -/
def semRest (d : Dev nD) (L : grid0.Coords) : sProp 𝕄 :=
  bigSep (((((((ownCells (thr d L)).erase (cell2 d L)).erase (cell3 d L)).erase (cell4 d L)).erase (cell5 d L)).erase (cell6 d L)).erase (cellS d L))
    fun g => semVal g 0

omit [FloatOps F] in
/-- The tile's own cells at zero are the six named ones at zero and the rest at zero: each of the six is a cell of
    this thread in its scope, and they are pairwise distinct. -/
theorem ownSems0_V :
    (ownSems0 (thr d L) : sProp 𝕄)
      = iprop(semVal (thr d L, SemLoc.dma cc0_scratch2.sem) 0 ∗ semVal (thr d L, SemLoc.dma cc0_scratch3.sem) 0
          ∗ semVal (thr d L, SemLoc.dma cc0_scratch4.sem) 0 ∗ semVal (thr d L, SemLoc.dma cc0_scratch5.sem) 0
          ∗ semVal (thr d L, SemLoc.dma cc0_scratch6.sem) 0 ∗ semVal (thr d L, SemLoc.dma cc0_scoped0.sem) 0 ∗ semRest d L) := by
  have h2 : cell2 d L ∈ ownCells (thr d L) := (mem_ownCells (g := cell2 d L)).mpr ⟨rfl, by
    show (SemLoc.dma cc0_scratch2.sem : SemLoc sig).isScoped .scVector = true; decide⟩
  have h3 : cell3 d L ∈ ownCells (thr d L) := (mem_ownCells (g := cell3 d L)).mpr ⟨rfl, by
    show (SemLoc.dma cc0_scratch3.sem : SemLoc sig).isScoped .scVector = true; decide⟩
  have h4 : cell4 d L ∈ ownCells (thr d L) := (mem_ownCells (g := cell4 d L)).mpr ⟨rfl, by
    show (SemLoc.dma cc0_scratch4.sem : SemLoc sig).isScoped .scVector = true; decide⟩
  have h5 : cell5 d L ∈ ownCells (thr d L) := (mem_ownCells (g := cell5 d L)).mpr ⟨rfl, by
    show (SemLoc.dma cc0_scratch5.sem : SemLoc sig).isScoped .scVector = true; decide⟩
  have h6 : cell6 d L ∈ ownCells (thr d L) := (mem_ownCells (g := cell6 d L)).mpr ⟨rfl, by
    show (SemLoc.dma cc0_scratch6.sem : SemLoc sig).isScoped .scVector = true; decide⟩
  have hS : cellS d L ∈ ownCells (thr d L) := (mem_ownCells (g := cellS d L)).mpr ⟨rfl, by
    show (SemLoc.dma cc0_scoped0.sem : SemLoc sig).isScoped .scVector = true; decide⟩
  have n32 : cell3 d L ≠ cell2 d L := cell_ne d L (by decide)
  have n42 : cell4 d L ≠ cell2 d L := cell_ne d L (by decide)
  have n43 : cell4 d L ≠ cell3 d L := cell_ne d L (by decide)
  have n52 : cell5 d L ≠ cell2 d L := cell_ne d L (by decide)
  have n53 : cell5 d L ≠ cell3 d L := cell_ne d L (by decide)
  have n54 : cell5 d L ≠ cell4 d L := cell_ne d L (by decide)
  have n62 : cell6 d L ≠ cell2 d L := cell_ne d L (by decide)
  have n63 : cell6 d L ≠ cell3 d L := cell_ne d L (by decide)
  have n64 : cell6 d L ≠ cell4 d L := cell_ne d L (by decide)
  have n65 : cell6 d L ≠ cell5 d L := cell_ne d L (by decide)
  have nS2 : cellS d L ≠ cell2 d L := cell_ne d L (by decide)
  have nS3 : cellS d L ≠ cell3 d L := cell_ne d L (by decide)
  have nS4 : cellS d L ≠ cell4 d L := cell_ne d L (by decide)
  have nS5 : cellS d L ≠ cell5 d L := cell_ne d L (by decide)
  have nS6 : cellS d L ≠ cell6 d L := cell_ne d L (by decide)
  unfold SparseCore.Cfg.ownSems0 semRest
  rw [SparseCore.bigSep_erase' h2,
    SparseCore.bigSep_erase' (Finset.mem_erase_of_ne_of_mem n32 h3),
    SparseCore.bigSep_erase' (Finset.mem_erase_of_ne_of_mem n43 (Finset.mem_erase_of_ne_of_mem n42 h4)),
    SparseCore.bigSep_erase' (Finset.mem_erase_of_ne_of_mem n54 (Finset.mem_erase_of_ne_of_mem n53 (Finset.mem_erase_of_ne_of_mem n52 h5))),
    SparseCore.bigSep_erase' (Finset.mem_erase_of_ne_of_mem n65 (Finset.mem_erase_of_ne_of_mem n64 (Finset.mem_erase_of_ne_of_mem n63
      (Finset.mem_erase_of_ne_of_mem n62 h6)))),
    SparseCore.bigSep_erase' (Finset.mem_erase_of_ne_of_mem nS6 (Finset.mem_erase_of_ne_of_mem nS5 (Finset.mem_erase_of_ne_of_mem nS4
      (Finset.mem_erase_of_ne_of_mem nS3 (Finset.mem_erase_of_ne_of_mem nS2 hS)))))]

/-! ## The tile's two scratch arrays -/

/-- The rest of the tile's own arrays, the two scratch arrays taken out, each whole at some contents. -/
def bufRest (d : Dev nD) (L : grid0.Coords) : sProp 𝕄 :=
  bigSep (((ownRefs (τ := τ) (.scVector (cV L) (jV L))).erase ((Proc.scVector (cV L) (jV L)).devRef cc0_scratch0)).erase
      ((Proc.scVector (cV L) (jV L)).devRef cc0_scratch1))
    fun b => iprop(∃ f, ((d, b) : Loc nD τ sig) ↦{fullShare} f)

omit [FloatOps F] in
/-- The tile's own arrays, each whole at some contents, are its two scratch arrays and the rest: both are arrays
    this tile owns, and they are distinct. -/
theorem ownBufs_V :
    (ownBufs (thr d L) : sProp 𝕄)
      = iprop((∃ f, (thr d L).loc cc0_scratch0 ↦{fullShare} f) ∗ (∃ f, (thr d L).loc cc0_scratch1 ↦{fullShare} f) ∗ bufRest d L) := by
  unfold SparseCore.Cfg.ownBufs bufRest
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The chunks of the tile's row of the result -/

omit [FloatOps F] in
theorem bound_one : grid0.bound 1 = 16 := rfl
/-- The tile of a grid point, as one of the launch's sixteen. -/
abbrev jL (L : grid0.Coords) : Fin 16 := Fin.cast bound_one (L 1)

omit [FloatOps F] in
/-- The entries of chunk `r` as the body slices it are the entries of its rectangle: a slice of the whole array
    keeps the array's own indices. -/
theorem chSet_rect (r : Fin 4) :
    chSet L r = (Rect.unit (s := S16384) (k0_off2 L (BitVec.ofNat 32 (256 * r.val))) S256.size (k0_off2_inb L r)).set := by
  show ((View.whole (main_v0_scv : Ref sig .scVector)).slice
    (Rect.unit (s := S16384) (k0_off2 L (BitVec.ofNat 32 (256 * r.val))) S256.size (k0_off2_inb L r))).set = _
  rw [View.set_slice]; exact Finset.map_refl

omit [FloatOps F] in
/-- The offset of chunk `r` of the tile's row is `1024·j + 256·r`: the SparseCore coordinate of a grid point of
    this grid is 0. -/
theorem off2_zero (r : Fin 4) : k0_off2 L (BitVec.ofNat 32 (256 * r.val)) 0 = 1024 * (jL L).val + 256 * r.val := by
  have h0 : (L 0).val < 1 := (L 0).isLt
  have e : k0_off2 L (BitVec.ofNat 32 (256 * r.val)) 0 = 1024 * (L 1).val + 1024 * (L 0).val + 256 * r.val :=
    congrFun (k0_off2_eq L r) 0
  have hj : (jL L).val = (L 1).val := rfl
  omega

omit [FloatOps F] in
/-- Chunk `r` as the body slices it is the window the launch dealt: entries `1024·j + 256·r … + 255`. -/
theorem chSet_eq (r : Fin 4) : chSet L r = winAt (1024 * (jL L).val + 256 * r.val) :=
  (chSet_rect L r).trans ((Cert.Proof.LibWindows.rectUnit_set_eq_winAt _ _).trans (congrArg winAt (off2_zero L r)))

omit [FloatOps F] in
/-- The tile's row of the result, held outright at `f`, is its four chunks as the body slices them, each held
    outright at `f`. -/
theorem oRow_chunks (f : Buf (Elt F) (oLoc d)) :
    (oRow d (jL L) f : sProp 𝕄) = iprop((oLoc d ↦[chSet L 0]{fullShare} f) ∗ (oLoc d ↦[chSet L 1]{fullShare} f)
      ∗ (oLoc d ↦[chSet L 2]{fullShare} f) ∗ (oLoc d ↦[chSet L 3]{fullShare} f)) := by
  rw [chSet_eq, chSet_eq, chSet_eq, chSet_eq]
  show (bigSep Finset.univ fun r : Fin 4 => oLoc d ↦[winAt (1024 * (jL L).val + 256 * r.val)]{fullShare} f) = _
  rw [show (Finset.univ : Finset (Fin 4)) = {0, 1, 2, 3} by decide,
    SparseCore.bigSep_insert' (by decide), SparseCore.bigSep_insert' (by decide), SparseCore.bigSep_insert' (by decide), bigSep_singleton]

end Tile

end Cert.Proof.LaunchB

end
-- ==== Proof.SplitB.lean ====
/-
  The launch side of the lookup kernel's run: how the one call's operands are dealt to the sixteen tiles and
  gathered again, the launch element of the ghost state, the TensorCore's program around the call, and what the
  final memory says.

  The index list and the table are read by every tile and written by none, so each goes out as sixteen read
  tokens of its full share; what remains of the share after the sixteen tokens is handed to no tile and waits for
  them, and the remainder with the sixteen tokens is the full share again. The result array is written, each tile
  its own part: the array is the disjoint union of its 16 rows of 1024 entries, and a row the disjoint union of its
  4 chunks of 256, so holding the array outright is holding every chunk of every row outright, at the same
  contents; read from right to left, chunks that all hold one function `g` are the array holding `g`.
-/
import proofs.«203133_g87995289960615_cont_sun_m_739_20_alg».proof.Proof.SetupB

noncomputable section

namespace Cert.Proof.LaunchB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

variable (m : (ℓ : Loc nD τ sig) → Buf (Elt F) ℓ) (ρ : Dev nD → PrngReg)

/-! ## The result array as its rows, a row as its chunks -/

/-- The result array held outright is its sixteen rows held outright, at the same contents: the rows are pairwise
    disjoint and their union is every index. -/
theorem oPts_rows (d : Dev nD) (f : Buf (Elt F) (oLoc d)) :
    (oLoc d ↦{fullShare} f : sProp (MM F)) = bigSep Finset.univ fun i : Fin 16 => oLoc d ↦[rowAt i.val]{fullShare} f := by
  rw [← pointsTo_biUnion Finset.univ (ℓ := oLoc d) (fun i : Fin 16 => rowAt i.val) Cert.Proof.LibWindows.rows_disjoint,
    Cert.Proof.LibWindows.rows_cover]; try rfl

/-- Row `i` held outright is its four chunks held outright, at the same contents: the chunks of a row are pairwise
    disjoint and their union is the row. -/
theorem oRow_eq (d : Dev nD) (i : Fin 16) (f : Buf (Elt F) (oLoc d)) :
    (oLoc d ↦[rowAt i.val]{fullShare} f : sProp (MM F)) = oRow d i f := by
  rw [← Cert.Proof.LibWindows.wins_cover i.val,
    pointsTo_biUnion Finset.univ (ℓ := oLoc d) (fun r : Fin 4 => winAt (1024 * i.val + 256 * r.val))
      (Cert.Proof.LibWindows.wins_disjoint i.val)]

/-- The result array held outright is every chunk of every row held outright, at the same contents. Read from left
    to right it deals the array to the tiles; from right to left it gathers chunks that all hold `f`. -/
theorem oPts_split (d : Dev nD) (f : Buf (Elt F) (oLoc d)) :
    (oPts d f : sProp (MM F)) = bigSep Finset.univ fun i : Fin 16 => oRow d i f :=
  (oPts_rows d f).trans (bigSep_congr fun i _ => oRow_eq d i f)

/-- A family over the call's tasks is the same family over `Fin 16`: the call has sixteen tasks. -/
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

/-! ## The split of the call's operands among its tiles -/

/-- From the three arrays held whole to every tile's two read tokens and its row's four chunks; and back, once every
    tile has brought its tokens and its chunks holding the lookup, to the three arrays held whole, the result array at
    the lookup. The remainders of the two read shares are kept across the call and joined with the tokens at its end. -/
theorem vecSplit : (K (F := F)).VecSplit' (P m) 0 := by
  intro d c
  show iprop(iPts m d ∗ xPts m d ∗ oPts d (m (oLoc d))) ⊢ |={Set.univ}=> iprop(
      (bigSep Finset.univ fun i : Fin ((K (F := F)).nSub 0) =>
        iprop(iTok m d (Fin.cast nSub_zero i) ∗ xTok m d (Fin.cast nSub_zero i) ∗ oRow d (Fin.cast nSub_zero i) (m (oLoc d))))
      ∗ ((bigSep Finset.univ fun i : Fin ((K (F := F)).nSub 0) =>
          iprop(iTok m d (Fin.cast nSub_zero i) ∗ xTok m d (Fin.cast nSub_zero i) ∗ oRow d (Fin.cast nSub_zero i) (G m d)))
          -∗ iprop(iPts m d ∗ xPts m d ∗ oPts d (G m d))))
  rw [bigSep_tasks (F := F) (fun i => iprop(iTok m d i ∗ xTok m d i ∗ oRow d i (m (oLoc d)))),
    bigSep_tasks (F := F) (fun i => iprop(iTok m d i ∗ xTok m d i ∗ oRow d i (G m d))), bigSep_sep', bigSep_sep', bigSep_sep', bigSep_sep']
  rw [oPts_split d (m (oLoc d)), oPts_split d (G m d)]
  iintro ⟨Hi, Hx, Ho⟩
  ihave Hi' := (Transfers.pointsTo_toks_split (ℓ := iLoc d) (S := Finset.univ) (f := m (iLoc d)) fullShare 16) $$ Hi
  icases Hi' with ⟨Hid, Hit⟩
  ihave Hx' := (Transfers.pointsTo_toks_split (ℓ := xLoc d) (S := Finset.univ) (f := m (xLoc d)) fullShare 16) $$ Hx
  icases Hx' with ⟨Hxd, Hxt⟩
  imodintro
  isplitl [Hit Hxt Ho]
  · isplitl [Hit]; · iexact Hit
    isplitl [Hxt]; · iexact Hxt
    iexact Ho
  iintro ⟨Hit, Hxt, Ho⟩
  isplitl [Hid Hit]
  · iapply (Transfers.pointsTo_toks_join (ℓ := iLoc d) (S := Finset.univ) (f := m (iLoc d)) fullShare 16)
    isplitl [Hid]; · iexact Hid
    iexact Hit
  isplitl [Hxd Hxt]
  · iapply (Transfers.pointsTo_toks_join (ℓ := xLoc d) (S := Finset.univ) (f := m (xLoc d)) fullShare 16)
    isplitl [Hxd]; · iexact Hxd
    iexact Hxt
  iexact Ho

/-! ## The launch element of the ghost state -/

/-- The launch element: the handshakes' rounds at their start beside the unit of the transfers' counters. -/
def u₀ : UU := (initOf (K (F := F)).hsCells (K (F := F)).hsToks, 1)

/-- A separating conjunction of `emp`s is `emp`. -/
theorem bigSep_emp' {I : Type} (s : Finset I) : (bigSep s fun _ => iprop(emp)) = (iprop(emp) : sProp (MM F)) := bigSep_emp_const s

/-- Owning the launch element gives the handshakes' rounds at their start; no device and no thread is owed anything
    more, the transfers' counters being dropped. -/
theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The TensorCore's program -/

/-- The TensorCore's buffers that no scope allocates are the index list, the table and the result array. -/
theorem unscopedBufs_eq (d : Dev nD) (W : (b : Ref sig .tc) → Buf (Elt F) ((d.tc : Thread nD τ).loc b)) :
    (unscopedBufs d W : sProp (MM F)) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The call runs on one SparseCore, so what the call takes over its SparseCores is what that one takes; -/
theorem st0_eq (d : Dev nD) : (bigSep Finset.univ fun c : Fin ((K (F := F)).nCore 0) => (P m).st 0 d c) = iprop(iPts m d ∗ xPts m d ∗ oPts d (m (oLoc d))) :=
  bigSep_univ_of_subsingleton (0 : Fin 1)
/-- and what it hands back is what that one hands back. -/
theorem dn0_eq (d : Dev nD) : (bigSep Finset.univ fun c : Fin ((K (F := F)).nCore 0) => (P m).dn 0 d c) = iprop(iPts m d ∗ xPts m d ∗ oPts d (G m d)) :=
  bigSep_univ_of_subsingleton (0 : Fin 1)

/-- What the TensorCore holds when its program ends: the index list and the table as launched, the result array
    at the lookup. -/
abbrev FIN (d : Dev nD) : sProp (MM F) := iprop(iPts m d ∗ xPts m d ∗ oPts d (G m d))

/-- The TensorCore's program on device `d`: the one call, from the three arrays held whole to the three arrays held
    whole, the result array at the lookup. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitl [Hi]; · iexact Hi
  isplitl [Hx]; · iexact Hx
  iexact Ho

/-! ## What the final memory says -/

/-- The final memory of device `d`: the result array is the lookup, the index list and the table are as launched. -/
def fq (d : Dev nD) (s' : Phys nD τ sig (Elt F)) : Prop :=
  s'.mem.mem (oLoc d) = G m d ∧ s'.mem.mem (iLoc d) = m (iLoc d) ∧ s'.mem.mem (xLoc d) = m (xLoc d)

/-- An array held outright at `f` is `f` in the memory: so the three arrays held at the end say the final memory. -/
theorem hfin (d : Dev nD) (s' : Phys nD τ sig (Elt F)) : iprop(FIN m d ∗ SI s') ⊢ (⌜fq m d s'⌝ : sProp (MM F)) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

end Cert.Proof.LaunchB

end
-- ==== Proof.RunB.lean ====
/-
  From one tile's task to the kernel's run.

  The tile's task, as the launch hands it its resources: two read tokens, its row of the result as the four windows
  the launch dealt, and its own arrays and transfer cells under the launch's names. Opening those into the pieces
  the task's body names — the two scratch arrays, the six cells, the rest; the row as the four chunks the body
  slices — the task is the body's run from those pieces, the rest carried along as a frame, and what comes back is
  reassembled under the launch's names, the row holding the lookup.

  Every tile's task meeting its obligation, the call's operands split among the tiles and joined again, the launch
  element, the TensorCore's program around the one call and the reading of the final memory are the arguments of the
  launch theorem of the SparseCore library; its conclusion is the program's run: under the range of every device's
  index list, every weakly fair execution from the launch memory ends, the result array holding the lookup of the
  index list in the table and both of those unchanged.
-/
import proofs.«203133_g87995289960615_cont_sun_m_739_20_alg».proof.Proof.TileB
import proofs.«203133_g87995289960615_cont_sun_m_739_20_alg».proof.Proof.TileOpenB
import proofs.«203133_g87995289960615_cont_sun_m_739_20_alg».proof.Proof.SplitB

noncomputable section

namespace Cert.Proof.LaunchB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.LibWindows (winAt rowAt)

variable {F : FTy → Type}

local notation "𝕄" => MM F

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S39731 EltTy.i32)
local notation "oV" => (Memref.whole Cert.Kernel.main_v0_scv : Memref Cert.Kernel.sig Kind.scVector Space.hbm Cert.Kernel.S16384 EltTy.i32)
local notation "sV" => (Memref.whole Cert.Kernel.cc0_scratch0 : Memref Cert.Kernel.sig Kind.scVector Space.vmem Cert.Kernel.S1024 EltTy.i32)
local notation "rV" => (Memref.whole Cert.Kernel.cc0_scratch1 : Memref Cert.Kernel.sig Kind.scVector Space.vmem Cert.Kernel.S1024 EltTy.i32)

variable [FloatOps F]

section Tile
variable (d : Dev nD) (L : grid0.Coords)

/-! ## The tile's task from what the launch hands it -/

set_option maxHeartbeats 1000000 in
/-- The task of the tile at grid point `L` of device `d`, from what the launch hands it — its two read tokens and its
    row of the result as the launch's four windows, its own arrays and cells as the launch names them — to the same
    back, the row holding the lookup. The tile's own arrays and cells are opened into the two scratch arrays, the six
    transfer cells and the rest; the row into the four chunks as the body slices them; the body's run from those
    pieces is `tile_core`, the rest carried through as its frame. -/
theorem tile_body (hF : (K (F := F)).Facts) (hpre : Cert.Proof.Spec.InRange (m (iLoc d))) (O : CellTallies nD τ sig (HIx 1))
    (W : Waits sig (HIx 1)) (hO : ∀ g, O g none = 0) :
    iprop(levAts (K (F := F)).L (K (F := F)).lev ∗ emp ∗ (iTok m d (jL L) ∗ xTok m d (jL L) ∗ oRow d (jL L) (m (oLoc d)))
        ∗ scopedBufs (thr d L) ∗ scopedSems0 (thr d L) ∗ owes (thr d L) O W)
      ⊢ wp frame (wpE (defs₀ (F := F)) 𝒱₀ (thr d L) none) Set.univ
          (cc0__gather_kernel L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scoped0)
          fun _ => iprop((iTok m d (jL L) ∗ xTok m d (jL L) ∗ oRow d (jL L) (G m d)) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L),
    ownSems0_V d L, ownBufs_V d L, oRow_chunks d L, oRow_chunks d L]
  iintro ⟨#Hlv, -, ⟨Hi, Hx, Ho0, Ho1, Ho2, Ho3⟩, ⟨⟨%fs, Hs⟩, ⟨%fr, Hr⟩, Hbufs⟩, ⟨H2, H3, H4, H5, H6, HS, Hsems⟩, HO⟩
  ihave Hmw := ((K (F := F)).mayWaits_none (thr := thr d L) hO) $$ Hlv
  iapply ((tile_core m d L hpre O W (qT (jL L)) (qT (jL L)) fs fr (m (oLoc d)) trivial iprop(bufRest d L ∗ semRest d L)).trans
    (wp_mono frame _ _ fun _ => ?post)) $$ [Hmw Hi Hx Ho0 Ho1 Ho2 Ho3 Hs Hr H2 H3 H4 H5 H6 HS HO Hbufs Hsems]
  case post =>
    iintro ⟨Hi, Hx, Ho0, Ho1, Ho2, Ho3, Hs, Hr, H2, H3, H4, H5, H6, HS, HO, Hbufs, Hsems⟩
    isplitl [Hi Hx Ho0 Ho1 Ho2 Ho3]
    · isplitl [Hi]; · iexact Hi
      isplitl [Hx]; · iexact Hx
      isplitl [Ho0]; · iexact Ho0
      isplitl [Ho1]; · iexact Ho1
      isplitl [Ho2]; · iexact Ho2
      iexact Ho3
    isplitl [Hs Hr Hbufs]
    · isplitl [Hs]; · iexact Hs
      isplitl [Hr]; · iexact Hr
      iexact Hbufs
    isplitl [H2 H3 H4 H5 H6 HS Hsems]
    · isplitl [H2]; · iexact H2
      isplitl [H3]; · iexact H3
      isplitl [H4]; · iexact H4
      isplitl [H5]; · iexact H5
      isplitl [H6]; · iexact H6
      isplitl [HS]; · iexact HS
      iexact Hsems
    iexact HO
  isplitl [Hmw]; · iexact Hmw
  isplitl [Hi]; · iexact Hi
  isplitl [Hx]; · iexact Hx
  isplitl [Ho0]; · iexact Ho0
  isplitl [Ho1]; · iexact Ho1
  isplitl [Ho2]; · iexact Ho2
  isplitl [Ho3]; · iexact Ho3
  isplitl [Hs]; · iexact Hs
  isplitl [Hr]; · iexact Hr
  isplitl [H2]; · iexact H2
  isplitl [H3]; · iexact H3
  isplitl [H4]; · iexact H4
  isplitl [H5]; · iexact H5
  isplitl [H6]; · iexact H6
  isplitl [HS]; · iexact HS
  isplitl [HO]; · iexact HO
  isplitl [Hbufs]; · iexact Hbufs
  iexact Hsems

end Tile

/-! ## The launch theorem's obligations -/

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The program of vector subcore `(c, s)` in the call is the kernel at that grid point, where the grid has one. -/
theorem defs₀_vector (c : Fin τ.nSC) (s : Fin τ.nSub) :
    defs₀ (F := F) (.scVector c s) 0 ()
      = SparseCore.onTile hcore0 hsub0 (fun c s => cc0__gather_kernel (coordsV c s)
          iV (Memref.isWhole_whole _) xV (Memref.isWhole_whole _) oV (Memref.isWhole_whole _)
          sV (Memref.isWhole_whole _) rV (Memref.isWhole_whole _) cc0_scratch2 cc0_scratch3 cc0_scratch4 cc0_scratch5 cc0_scratch6 cc0_scoped0) ⟨⟩ c s := rfl

omit [FloatOps F] in
/-- Waits recorded on no handshake are among those the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets its obligation: it is the task at the tile's grid point, under the range of that
    device's index list. -/
theorem tileObl (hF : (K (F := F)).Facts) (hpre : ∀ d : Dev nD, Cert.Proof.Spec.InRange (m (iLoc d))) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hpre d) O W hO).trans (wp_mono frame _ _ fun _ => obl_post)

/-! ## The program's run -/

/-- What the run ends at: on every device the result array is the lookup of the launch memory's index list in its
    table, and the index list and the table are as launched. -/
def QC : PUnit × MemSt nD τ sig (Elt F) → Prop :=
  fun r => ∀ c : Dev nD, r.2.mem (oLoc c) = G m c ∧ r.2.mem (iLoc c) = m (iLoc c) ∧ r.2.mem (xLoc c) = m (xLoc c)

/-- The program's run: under the range of every device's index list, every weakly fair execution from the launch
    memory ends, and ends there. -/
theorem run_main [∀ e, Nonempty (Elt F e)] (hpre : ∀ d : Dev nD, Cert.Proof.Spec.InRange (m (iLoc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.LaunchB

end
-- ==== Proof.lean ====
/-
  The proof of `Cert.Claim` for the lookup kernel: `result[j] = table[idx[j]]` for 16384 index words into a table of
  39731 entries, computed on sixteen tiles of one SparseCore, against `jnp.take` on the host.

  THE KERNEL. Tile `i` fetches words 1024·i … 1024·i+1023 of the index list into a scratch, issues four indirect gathers
  of 256 table entries each (each on a semaphore of its own) into the four windows of a second scratch, and after each
  gather's wait copies that window out to the matching chunk of row `i` of the result, the four copies on one shared
  semaphore and all waited for at the end. No copy's source or destination is touched between its issue and the last
  wait on its semaphore, so every schedule of the engine leaves the same contents. A gather reads the table at the
  position each offset word names, read as a natural number, and never returns if a word names no entry: the
  precondition (every index word between 0 and 39730) is what lets the tiles' threads finish at all.

  THE REFERENCE adds 39731 to negative words, clamps the start index into the table, gathers, and replaces by the least
  integer every entry whose word was out of range. Under the precondition no word is negative or out of range, the
  clamp is the identity, and what is left is the table at the position the word names.

  So both programs end with the result array at `Spec.take idx tbl`, on every device, with the two arguments unchanged.
  The kernel's run is stated once for any float instance (no float occurs: the arrays are 32-bit integers) and used at
  the word-level instance for the printed kernel's frame and at the ideal instance for the idealized kernel's frame and
  for the equality of results; the ideal pass rewrote nothing, so `preserves` has nothing to state. Each frame is the
  run with the result's value forgotten.
-/
import proofs.«203133_g87995289960615_cont_sun_m_739_20_alg».proof.Defs
import proofs.«203133_g87995289960615_cont_sun_m_739_20_alg».proof.Proof.Gen.Kernel
import proofs.«203133_g87995289960615_cont_sun_m_739_20_alg».proof.Proof.Gen.Kernel.Skeleton
import proofs.«203133_g87995289960615_cont_sun_m_739_20_alg».proof.Proof.Gen.KernelIdeal
import proofs.«203133_g87995289960615_cont_sun_m_739_20_alg».proof.Proof.Gen.KernelIdeal.Skeleton
import proofs.«203133_g87995289960615_cont_sun_m_739_20_alg».proof.Proof.Gen.ReferenceIdeal
import proofs.«203133_g87995289960615_cont_sun_m_739_20_alg».proof.Proof.Gen.Pre_input_domain
import proofs.«203133_g87995289960615_cont_sun_m_739_20_alg».proof.Proof.PreRanges
import proofs.«203133_g87995289960615_cont_sun_m_739_20_alg».proof.Proof.RefRun
import proofs.«203133_g87995289960615_cont_sun_m_739_20_alg».proof.Proof.RunI
import proofs.«203133_g87995289960615_cont_sun_m_739_20_alg».proof.Proof.RunB
import Idealize.ShloMosaic.Adequacy
import Idealize.ShloMosaic.Init

noncomputable section

namespace Cert.Proof

open Idealize.ShloMosaic Idealize.SL.Sem

/-- The printed kernel runs and leaves its arguments unchanged: its run at the word-level instance, the result's
    value forgotten. -/
theorem frame_p : Cert.frame_Kernel := fun m g hpre =>
  (θ_run (Cert.Kernel.defs (F := Bits)) _ _).mono (fun _ h c => ⟨(h c).2.1, (h c).2.2⟩)
    (Cert.Proof.LaunchB.run_main (F := Bits) m g fun d => Cert.Proof.PreRanges.inRange_of_pre _ _ (hpre d))

/-- The idealized kernel likewise, at the ideal instance. -/
theorem frame_pi : Cert.frame_KernelIdeal := fun m g hpre =>
  (θ_run (Cert.KernelIdeal.defs (F := Ideal)) _ _).mono (fun _ h c => ⟨(h c).2.1, (h c).2.2⟩)
    (Cert.Proof.LaunchI.run_main (F := Ideal) m g fun d => Cert.Proof.PreRanges.inRange_of_pre _ _ (hpre d))

/-- The reference runs and leaves its arguments unchanged: its run with the result's value forgotten. -/
theorem frame_ri : Cert.frame_ReferenceIdeal := fun m g hpre =>
  (θ_run (Cert.ReferenceIdeal.defs (F := Ideal)) _ _).mono (fun _ h c => ⟨(h c).2.1, (h c).2.2⟩)
    (Cert.Proof.RefRun.run m g fun c => Cert.Proof.PreRanges.inRange_of_pre _ _ (hpre c))

/-- From memories that agree on the arguments both programs end with the result at the lookup of the kernel's
    index list in its table: the kernel by its run, the reference by its own, the two lookups one function of equal
    arguments. -/
theorem algebraic : Cert.algebraic_KernelIdeal_ReferenceIdeal := by
  intro m g m' g' hpre hagree
  have hin : ∀ d, Cert.Proof.Spec.InRange (m (Cert.Proof.LaunchI.iLoc d)) :=
    fun d => Cert.Proof.PreRanges.inRange_of_pre _ _ (hpre d)
  refine ⟨fun c => Cert.Proof.LaunchI.G m c,
    (θ_run (Cert.KernelIdeal.defs (F := Ideal)) _ _).mono (fun _ h c => h c) (Cert.Proof.LaunchI.run_main (F := Ideal) m g hin), ?_⟩
  refine (θ_run (Cert.ReferenceIdeal.defs (F := Ideal)) _ _).mono (fun _ h c => ⟨(h c).1.trans ?_, (h c).2.1, (h c).2.2⟩)
    (Cert.Proof.RefRun.run m' g' fun c => by rw [(hagree c).1]; exact hin c)
  rw [(hagree c).1, (hagree c).2]

theorem claim : Cert.Claim :=
  ⟨Cert.Kernel.Gen.facts, Cert.KernelIdeal.Gen.facts, Cert.ReferenceIdeal.Gen.facts, Cert.Pre_input_domain.Gen.facts,
    frame_p, frame_pi, frame_ri, trivial, algebraic⟩

end Cert.Proof

end
